-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S2x1250000 32) (main_arg2 : FVec F S64x64 .f32) (main_arg3 : FVec F S64 .f32) (main_arg4 : FVec F S64x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S1x64 : Shape := ⟨2, ![1, 64]⟩
abbrev S5000x64 : Shape := ⟨2, ![5000, 64]⟩
abbrev S5000x1 : Shape := ⟨2, ![5000, 1]⟩
abbrev S100000x32 : Shape := ⟨2, ![100000, 32]⟩
abbrev S10000x64 : Shape := ⟨2, ![10000, 64]⟩
abbrev S10000x32 : Shape := ⟨2, ![10000, 32]⟩
abbrev S1250000x32 : Shape := ⟨2, ![1250000, 32]⟩
abbrev S1x32 : Shape := ⟨2, ![1, 32]⟩
abbrev S5000x32 : Shape := ⟨2, ![5000, 32]⟩

abbrev nBuf : Space → Nat
  | .hbm => 83
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1250000, .i32⟩
  | .hbm, ⟨7, _⟩ => ⟨S1250000, .i32⟩
  | .hbm, ⟨8, _⟩ => ⟨S1x1250000, .i32⟩
  | .hbm, ⟨9, _⟩ => ⟨S1250000, .i32⟩
  | .hbm, ⟨10, _⟩ => ⟨S_, .f32⟩
  | .hbm, ⟨11, _⟩ => ⟨S1250000, .f32⟩
  | .hbm, ⟨12, _⟩ => ⟨S_, .f32⟩
  | .hbm, ⟨13, _⟩ => ⟨S100000, .f32⟩
  | .hbm, ⟨14, _⟩ => ⟨S1250000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1250000, .i32⟩
  | .hbm, ⟨30, _⟩ => ⟨S1250000, .i1⟩
  | .hbm, ⟨31, _⟩ => ⟨S_, .i32⟩
  | .hbm, ⟨32, _⟩ => ⟨S1250000, .i32⟩
  | .hbm, ⟨33, _⟩ => ⟨S1250000, .i32⟩
  | .hbm, ⟨34, _⟩ => ⟨S1250000, .i32⟩
  | .hbm, ⟨35, _⟩ => ⟨S1250000x1, .i32⟩
  | .hbm, ⟨36, _⟩ => ⟨S1250000x64, .f32⟩
  | .hbm, ⟨37, _⟩ => ⟨S_, .i32⟩
  | .hbm, ⟨38, _⟩ => ⟨S1250000, .i32⟩
  | .hbm, ⟨39, _⟩ => ⟨S1250000, .i1⟩
  | .hbm, ⟨40, _⟩ => ⟨S_, .i32⟩
  | .hbm, ⟨41, _⟩ => ⟨S1250000, .i32⟩
  | .hbm, ⟨42, _⟩ => ⟨S1250000, .i32⟩
  | .hbm, ⟨43, _⟩ => ⟨S1250000, .i32⟩
  | .hbm, ⟨44, _⟩ => ⟨S1250000x1, .i32⟩
  | .hbm, ⟨45, _⟩ => ⟨S1250000, .f32⟩
  | .hbm, ⟨46, _⟩ => ⟨S1250000x1, .f32⟩
  | .hbm, ⟨47, _⟩ => ⟨S1250000x64, .f32⟩
  | .hbm, ⟨48, _⟩ => ⟨S1250000x64, .f32⟩
  | .hbm, ⟨49, _⟩ => ⟨S_, .f32⟩
  | .hbm, ⟨50, _⟩ => ⟨S100000x64, .f32⟩
  | .hbm, ⟨51, _⟩ => ⟨S1250000x1, .i32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S100000x32, .f32⟩
  | .hbm, ⟨56, _⟩ => ⟨S_, .i32⟩
  | .hbm, ⟨57, _⟩ => ⟨S1250000, .i32⟩
  | .hbm, ⟨58, _⟩ => ⟨S1250000, .i1⟩
  | .hbm, ⟨59, _⟩ => ⟨S_, .i32⟩
  | .hbm, ⟨60, _⟩ => ⟨S1250000, .i32⟩
  | .hbm, ⟨61, _⟩ => ⟨S1250000, .i32⟩
  | .hbm, ⟨62, _⟩ => ⟨S1250000, .i32⟩
  | .hbm, ⟨63, _⟩ => ⟨S1250000x1, .i32⟩
  | .hbm, ⟨64, _⟩ => ⟨S1250000x32, .f32⟩
  | .hbm, ⟨65, _⟩ => ⟨S_, .i32⟩
  | .hbm, ⟨66, _⟩ => ⟨S1250000, .i32⟩
  | .hbm, ⟨67, _⟩ => ⟨S1250000, .i1⟩
  | .hbm, ⟨68, _⟩ => ⟨S_, .i32⟩
  | .hbm, ⟨69, _⟩ => ⟨S1250000, .i32⟩
  | .hbm, ⟨70, _⟩ => ⟨S1250000, .i32⟩
  | .hbm, ⟨71, _⟩ => ⟨S1250000, .i32⟩
  | .hbm, ⟨72, _⟩ => ⟨S1250000x1, .i32⟩
  | .hbm, ⟨73, _⟩ => ⟨S1250000, .f32⟩
  | .hbm, ⟨74, _⟩ => ⟨S1250000x1, .f32⟩
  | .hbm, ⟨75, _⟩ => ⟨S1250000x32, .f32⟩
  | .hbm, ⟨76, _⟩ => ⟨S1250000x32, .f32⟩
  | .hbm, ⟨77, _⟩ => ⟨S_, .f32⟩
  | .hbm, ⟨78, _⟩ => ⟨S100000x32, .f32⟩
  | .hbm, ⟨79, _⟩ => ⟨S1250000x1, .i32⟩
  | .hbm, ⟨80, _⟩ => ⟨S100000x32, .f32⟩
  | .hbm, ⟨81, _⟩ => ⟨S1x32, .f32⟩
  | .hbm, ⟨82, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S10000x64, .f32⟩
  | .local _ .vmem, ⟨9, _⟩ => ⟨S10000x64, .f32⟩
  | .local _ .vmem, ⟨10, _⟩ => ⟨S64x32, .f32⟩
  | .local _ .vmem, ⟨11, _⟩ => ⟨S10000x32, .f32⟩
  | .local _ .vmem, ⟨12, _⟩ => ⟨S10000x32, .f32⟩
  | .local _ .vmem, ⟨13, _⟩ => ⟨S5000x32, .f32⟩
  | .local _ .vmem, ⟨14, _⟩ => ⟨S5000x32, .f32⟩
  | .local _ .vmem, ⟨15, _⟩ => ⟨S5000x1, .f32⟩
  | .local _ .vmem, ⟨16, _⟩ => ⟨S5000x1, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  shapeCasts_S100000_S100000x1 : S100000.ShapeCasts S100000x1
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1250000x1_S1250000x32_0_1 : S1250000x1.BroadcastsInDim S1250000x32 (![0, 1] : Fin 2 → Fin S1250000x32.rank)
  bcast_S_S100000x32 : S_.BroadcastsInDim S100000x32 (![] : Fin 0 → Fin S100000x32.rank)
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  gather_S100000_S1250000x1_S1250000_n_0_n_n_0_1_1_wf : GatherDims.WF S100000 S1250000x1 S1250000 [] [0] [] [0] [] 1 ![1]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  dot_S10000x64_S64x32_S10000x32_1_0_0_1_n_n_wf : DotDims.WF S10000x64 S64x32 S10000x32 [1] [0] [0] [1] [] []
  gather_S100000x32_S1250000x1_S1250000x32_1_0_n_n_0_1_132_wf : GatherDims.WF S100000x32 S1250000x1 S1250000x32 [1] [0] [] [0] [] 1 ![1, 32]
  scatter_S100000x32_S1250000x1_S1250000x32_1_0_0_1_wf : ScatterDims.WF S100000x32 S1250000x1 S1250000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1250000x1_S1250000x32_1_0_n_n_0_1_132 : GatherDims S100000x32 S1250000x1 S1250000x32 where
  offsetDims := [1]
  collapsedSliceDims := [0]
  operandBatchingDims := []
  startIndicesBatchingDims := []
  startIndexMap := [0]
  indexVectorDim := 1
  sliceSizes := ![1, 32]
  wf := gather_S100000x32_S1250000x1_S1250000x32_1_0_n_n_0_1_132_wf
def scatter_S100000x32_S1250000x1_S1250000x32_1_0_0_1 : ScatterDims S100000x32 S1250000x1 S1250000x32 where
  updateWindowDims := [1]
  insertedWindowDims := [0]
  scatterDimsToOperandDims := [0]
  indexVectorDim := 1
  wf := scatter_S100000x32_S1250000x1_S1250000x32_1_0_0_1_wf

abbrev win0_0 : Pipeline.Window sig grid0 :=
  Pipeline.Window.ofSpec (Memref.whole main_v34) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v36) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v57) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 94
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1250000, .i32⟩
  | .hbm, ⟨7, _⟩ => ⟨S1250000, .i32⟩
  | .hbm, ⟨8, _⟩ => ⟨S1x1250000, .i32⟩
  | .hbm, ⟨9, _⟩ => ⟨S1250000, .i32⟩
  | .hbm, ⟨10, _⟩ => ⟨S_, .f32⟩
  | .hbm, ⟨11, _⟩ => ⟨S1250000, .f32⟩
  | .hbm, ⟨12, _⟩ => ⟨S_, .f32⟩
  | .hbm, ⟨13, _⟩ => ⟨S100000, .f32⟩
  | .hbm, ⟨14, _⟩ => ⟨S1250000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1250000, .i32⟩
  | .hbm, ⟨29, _⟩ => ⟨S1250000, .i1⟩
  | .hbm, ⟨30, _⟩ => ⟨S_, .i32⟩
  | .hbm, ⟨31, _⟩ => ⟨S1250000, .i32⟩
  | .hbm, ⟨32, _⟩ => ⟨S1250000, .i32⟩
  | .hbm, ⟨33, _⟩ => ⟨S1250000, .i32⟩
  | .hbm, ⟨34, _⟩ => ⟨S1250000x1, .i32⟩
  | .hbm, ⟨35, _⟩ => ⟨S1250000x64, .f32⟩
  | .hbm, ⟨36, _⟩ => ⟨S_, .i32⟩
  | .hbm, ⟨37, _⟩ => ⟨S1250000, .i32⟩
  | .hbm, ⟨38, _⟩ => ⟨S1250000, .i1⟩
  | .hbm, ⟨39, _⟩ => ⟨S_, .i32⟩
  | .hbm, ⟨40, _⟩ => ⟨S1250000, .i32⟩
  | .hbm, ⟨41, _⟩ => ⟨S1250000, .i32⟩
  | .hbm, ⟨42, _⟩ => ⟨S1250000, .i32⟩
  | .hbm, ⟨43, _⟩ => ⟨S1250000x1, .i32⟩
  | .hbm, ⟨44, _⟩ => ⟨S1250000, .f32⟩
  | .hbm, ⟨45, _⟩ => ⟨S1250000x1, .f32⟩
  | .hbm, ⟨46, _⟩ => ⟨S1250000x64, .f32⟩
  | .hbm, ⟨47, _⟩ => ⟨S1250000x64, .f32⟩
  | .hbm, ⟨48, _⟩ => ⟨S_, .f32⟩
  | .hbm, ⟨49, _⟩ => ⟨S100000x64, .f32⟩
  | .hbm, ⟨50, _⟩ => ⟨S1250000x1, .i32⟩
  | .hbm, ⟨51, _⟩ => ⟨S100000x64, .f32⟩
  | .hbm, ⟨52, _⟩ => ⟨S100000x1, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S_, .i32⟩
  | .hbm, ⟨63, _⟩ => ⟨S1250000, .i32⟩
  | .hbm, ⟨64, _⟩ => ⟨S1250000, .i1⟩
  | .hbm, ⟨65, _⟩ => ⟨S_, .i32⟩
  | .hbm, ⟨66, _⟩ => ⟨S1250000, .i32⟩
  | .hbm, ⟨67, _⟩ => ⟨S1250000, .i32⟩
  | .hbm, ⟨68, _⟩ => ⟨S1250000, .i32⟩
  | .hbm, ⟨69, _⟩ => ⟨S1250000x1, .i32⟩
  | .hbm, ⟨70, _⟩ => ⟨S1250000x64, .f32⟩
  | .hbm, ⟨71, _⟩ => ⟨S_, .i32⟩
  | .hbm, ⟨72, _⟩ => ⟨S1250000, .i32⟩
  | .hbm, ⟨73, _⟩ => ⟨S1250000, .i1⟩
  | .hbm, ⟨74, _⟩ => ⟨S_, .i32⟩
  | .hbm, ⟨75, _⟩ => ⟨S1250000, .i32⟩
  | .hbm, ⟨76, _⟩ => ⟨S1250000, .i32⟩
  | .hbm, ⟨77, _⟩ => ⟨S1250000, .i32⟩
  | .hbm, ⟨78, _⟩ => ⟨S1250000x1, .i32⟩
  | .hbm, ⟨79, _⟩ => ⟨S1250000, .f32⟩
  | .hbm, ⟨80, _⟩ => ⟨S1250000x1, .f32⟩
  | .hbm, ⟨81, _⟩ => ⟨S1250000x64, .f32⟩
  | .hbm, ⟨82, _⟩ => ⟨S1250000x64, .f32⟩
  | .hbm, ⟨83, _⟩ => ⟨S_, .f32⟩
  | .hbm, ⟨84, _⟩ => ⟨S100000x64, .f32⟩
  | .hbm, ⟨85, _⟩ => ⟨S1250000x1, .i32⟩
  | .hbm, ⟨86, _⟩ => ⟨S100000x64, .f32⟩
  | .hbm, ⟨87, _⟩ => ⟨S100000x1, .f32⟩
  | .hbm, ⟨88, _⟩ => ⟨S100000x64, .f32⟩
  | .hbm, ⟨89, _⟩ => ⟨S100000x64, .f32⟩
  | .hbm, ⟨90, _⟩ => ⟨S100000x32, .f32⟩
  | .hbm, ⟨91, _⟩ => ⟨S1x32, .f32⟩
  | .hbm, ⟨92, _⟩ => ⟨S100000x32, .f32⟩
  | .hbm, ⟨93, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_cst : Ref sig .tc := ⟨.hbm, 59, rfl⟩
abbrev main_call1_v0 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  gather_S100000_S1250000x1_S1250000_n_0_n_n_0_1_1_wf : GatherDims.WF S100000 S1250000x1 S1250000 [] [0] [] [0] [] 1 ![1]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The kernel program's run with its result named. The program is three kernel regions among stretches of host
  operations; its buffers' contents at each boundary are a fold from the launch memory (a stretch applies its operations,
  a region replaces its output array by what its grid points write back). Every weakly fair execution terminates with the
  result buffer at the last boundary's contents and the arguments as launched.
-/
import proofs.«135906_j90486370992276_2_alg».proof.Proof.Gen.KernelIdeal.Frame

set_option maxRecDepth 16384

noncomputable section

namespace Cert.Gcn.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN WITH THE RESULT NAMED: the result buffer ends at the last boundary's contents, each argument as launched. -/
theorem run_result : θ_run defs (onTc (τ := τ) (main (F := F))) ⟨m, fun _ => 0, ρ⟩ (fun r => ∀ c : Dev nD,
      r.2.mem ((c.tc : Thread nD τ).loc main_v59) = W7 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v59 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.Gcn.Run

end
-- ==== Proof.KernelHost.lean ====
/-
  What the kernel program's host stretches leave in the buffers the three regions read, on the extended reals, as
  functions of the launch contents of the arguments: the stretch before the first region computes the edge index columns,
  the per-node scale and the first aggregate exactly as the reference program's first operations do, so those buffers hold
  the reference's own stages of the same arguments.
-/
import proofs.«135906_j90486370992276_2_alg».proof.Proof.Gen.KernelIdeal.Frame
import proofs.«135906_j90486370992276_2_alg».proof.Proof.RefRead
import Idealize.ShloMosaic.Lib.StableHlo.Run

set_option maxRecDepth 16384

noncomputable section

namespace Cert.Gcn.KHost

open Cert.KernelIdeal Cert.KernelIdeal.Gen
open Idealize.ShloMosaic Idealize.ShloMosaic.TcCoe Idealize.SL.Sem Idealize.ShloMosaic.StableHlo
open Cert.ReferenceIdeal.ReadP (val_main_v1 val_main_v3 val_main_v9 val_main_v12 val_main_v13 val_main_v33)

variable (m : (ℓ : Loc nD τ sig) → Buf (Elt Ideal) ℓ) (ρ : Dev nD → PrngReg)

/-! ## After the first stretch (the operations before the outlined select) -/

theorem w1_v9 (c : Dev nD) : (W1 m ρ c (Proc.devRef .tc main_v9) : S100000.Idx → BitVec 1)
    = val_main_v9 (F := Ideal) (m ((c.tc : Thread nD τ).loc main_arg1)) := by
  show StableHlo.after hostOps0 (W0 m ρ c) (Proc.devRef .tc main_v9) = _
  after_results_simp
  rfl

theorem w1_v12 (c : Dev nD) : (W1 m ρ c (Proc.devRef .tc main_v12) : S100000.Idx → EReal)
    = val_main_v12 (F := Ideal) (m ((c.tc : Thread nD τ).loc main_arg1)) := by
  show StableHlo.after hostOps0 (W0 m ρ c) (Proc.devRef .tc main_v12) = _
  after_results_simp
  rfl

theorem w1_cst3 (c : Dev nD) : (W1 m ρ c (Proc.devRef .tc main_cst_3) : S_.Idx → EReal)
    = constant (F := Ideal) S_ .f32 0x00000000#32 := by
  show StableHlo.after hostOps0 (W0 m ρ c) (Proc.devRef .tc main_cst_3) = _
  after_results_simp

/-! ## After the outlined select: the per-node scale

The outlined select reads and writes its buffers at the tensor types of its values; a buffer's declared type IS that
type, so the transport of contents along the declaration is the identity. -/

theorem toBuf_v13 (h1 h2 h3) (v : (⟨S100000, .f32⟩ : BufTy).Contents (Elt Ideal)) :
    (TRef.of (sig := sig) (T := ⟨S100000, .f32⟩) main_v13 h1 h2 h3).toBuf v = v := rfl
theorem ofBuf_v9 (h1 h2 h3) (v : (⟨S100000, .i1⟩ : BufTy).Contents (Elt Ideal)) :
    (TRef.of (sig := sig) (T := ⟨S100000, .i1⟩) main_v9 h1 h2 h3).ofBuf v = v := rfl
theorem ofBuf_v12 (h1 h2 h3) (v : (⟨S100000, .f32⟩ : BufTy).Contents (Elt Ideal)) :
    (TRef.of (sig := sig) (T := ⟨S100000, .f32⟩) main_v12 h1 h2 h3).ofBuf v = v := rfl
theorem ofBuf_c1 (h1 h2 h3) (v : (⟨S100000, .f32⟩ : BufTy).Contents (Elt Ideal)) :
    (TRef.of (sig := sig) (T := ⟨S100000, .f32⟩) main_call0_v1 h1 h2 h3).ofBuf v = v := rfl
theorem toBuf_c1 (h1 h2 h3) (v : (⟨S100000, .f32⟩ : BufTy).Contents (Elt Ideal)) :
    (TRef.of (sig := sig) (T := ⟨S100000, .f32⟩) main_call0_v1 h1 h2 h3).toBuf v = v := rfl
theorem ofBuf_c0 (h1 h2 h3) (v : (⟨S_, .f32⟩ : BufTy).Contents (Elt Ideal)) :
    (TRef.of (sig := sig) (T := ⟨S_, .f32⟩) main_call0_v0 h1 h2 h3).ofBuf v = v := rfl
theorem toBuf_c0 (h1 h2 h3) (v : (⟨S_, .f32⟩ : BufTy).Contents (Elt Ideal)) :
    (TRef.of (sig := sig) (T := ⟨S_, .f32⟩) main_call0_v0 h1 h2 h3).toBuf v = v := rfl
theorem ofBuf_cst3 (h1 h2 h3) (v : (⟨S_, .f32⟩ : BufTy).Contents (Elt Ideal)) :
    (TRef.of (sig := sig) (T := ⟨S_, .f32⟩) main_cst_3 h1 h2 h3).ofBuf v = v := rfl

/-- The per-node scale (buffer of %13) is the reference's: the select of the same condition, value and zero. -/
theorem w2_v13 (c : Dev nD) : (W2 m ρ c (Proc.devRef .tc main_v13) : S100000.Idx → EReal)
    = val_main_v13 (F := Ideal) (m ((c.tc : Thread nD τ).loc main_arg1)) := by
  have h9 := w1_v9 m ρ c
  have h12 := w1_v12 m ρ c
  have hc := w1_cst3 m ρ c
  show StableHlo.after hostOps0_1 (W1 m ρ c) (Proc.devRef .tc main_v13) = _
  generalize W1 m ρ c = W at h9 h12 hc ⊢
  after_results_simp
  rw [h9, h12, hc]
  unfold Cert.ReferenceIdeal.ReadP.val_main_v13 Cert.ReferenceIdeal.ReadP.val_main_call0_v1 Cert.ReferenceIdeal.ReadP.val_main_call0_v0 Cert.ReferenceIdeal.ReadP.val_main_cst_3
  generalize val_main_v9 (F := Ideal) (m ((c.tc : Thread nD τ).loc main_arg1)) = A
  generalize val_main_v12 (F := Ideal) (m ((c.tc : Thread nD τ).loc main_arg1)) = B
  rw [ofBuf_v9, ofBuf_v12, ofBuf_cst3, toBuf_c0, ofBuf_c0, toBuf_c1, ofBuf_c1, toBuf_v13]
  all_goals first | rfl | decide

theorem w2_v1 (c : Dev nD) : (W2 m ρ c (Proc.devRef .tc main_v1) : S1250000.Idx → BitVec 32)
    = val_main_v1 (F := Ideal) (m ((c.tc : Thread nD τ).loc main_arg1)) := by
  show StableHlo.after hostOps0_1 (StableHlo.after hostOps0 (W0 m ρ c)) (Proc.devRef .tc main_v1) = _
  after_results_simp
  rfl

theorem w2_v3 (c : Dev nD) : (W2 m ρ c (Proc.devRef .tc main_v3) : S1250000.Idx → BitVec 32)
    = val_main_v3 (F := Ideal) (m ((c.tc : Thread nD τ).loc main_arg1)) := by
  show StableHlo.after hostOps0_1 (StableHlo.after hostOps0 (W0 m ρ c)) (Proc.devRef .tc main_v3) = _
  after_results_simp
  rfl

theorem w2_arg0 (c : Dev nD) : (W2 m ρ c (Proc.devRef .tc main_arg0) : S100000x64.Idx → EReal) = m ((c.tc : Thread nD τ).loc main_arg0) := by
  show StableHlo.after hostOps0_1 (StableHlo.after hostOps0 (W0 m ρ c)) (Proc.devRef .tc main_arg0) = _
  after_results_simp

/-! ## At the first region's entry -/

/-- The source index column the first stretch leaves (buffer of %1). -/
theorem w3_v1 (c : Dev nD) : (W3 m ρ c (Proc.devRef .tc main_v1) : S1250000.Idx → BitVec 32)
    = val_main_v1 (F := Ideal) (m ((c.tc : Thread nD τ).loc main_arg1)) := by
  show StableHlo.after hostOps0_2 (StableHlo.after hostOps0_1 (StableHlo.after hostOps0 (W0 m ρ c))) (Proc.devRef .tc main_v1) = _
  after_results_simp
  rfl

/-- The destination index column (buffer of %3). -/
theorem w3_v3 (c : Dev nD) : (W3 m ρ c (Proc.devRef .tc main_v3) : S1250000.Idx → BitVec 32)
    = val_main_v3 (F := Ideal) (m ((c.tc : Thread nD τ).loc main_arg1)) := by
  show StableHlo.after hostOps0_2 (StableHlo.after hostOps0_1 (StableHlo.after hostOps0 (W0 m ρ c))) (Proc.devRef .tc main_v3) = _
  after_results_simp
  rfl

/-- The per-node scale (buffer of %13) is the reference's. -/
theorem w3_v13 (c : Dev nD) : (W3 m ρ c (Proc.devRef .tc main_v13) : S100000.Idx → EReal)
    = val_main_v13 (F := Ideal) (m ((c.tc : Thread nD τ).loc main_arg1)) := by
  have h13 := w2_v13 m ρ c
  show StableHlo.after hostOps0_2 (W2 m ρ c) (Proc.devRef .tc main_v13) = _
  generalize W2 m ρ c = W at h13 ⊢
  after_results_simp
  exact h13

/-- The scale as a column (buffer of %14). -/
theorem w3_v14 (c : Dev nD) : (W3 m ρ c (Proc.devRef .tc main_v14) : S100000x1.Idx → EReal)
    = shapeCast S100000x1 (val_main_v13 (F := Ideal) (m ((c.tc : Thread nD τ).loc main_arg1))) shapeCasts_S100000_S100000x1 := by
  have h13 := w2_v13 m ρ c
  show StableHlo.after hostOps0_2 (W2 m ρ c) (Proc.devRef .tc main_v14) = _
  generalize W2 m ρ c = W at h13 ⊢
  after_results_simp
  rw [h13]
  rfl

/-- The first aggregate (buffer of %34) is the reference's first aggregate. -/
theorem w3_v34 (c : Dev nD) : (W3 m ρ c (Proc.devRef .tc main_v34) : S100000x64.Idx → EReal)
    = val_main_v33 (F := Ideal) (m ((c.tc : Thread nD τ).loc main_arg0)) (m ((c.tc : Thread nD τ).loc main_arg1)) := by
  have h13 := w2_v13 m ρ c
  have h1 := w2_v1 m ρ c
  have h3 := w2_v3 m ρ c
  have h0 := w2_arg0 m ρ c
  show StableHlo.after hostOps0_2 (W2 m ρ c) (Proc.devRef .tc main_v34) = _
  generalize W2 m ρ c = W at h13 h1 h3 h0 ⊢
  after_results_simp
  rw [h13, h1, h3, h0]
  rfl

/-- The first weight is the argument. -/
theorem w3_arg2 (c : Dev nD) : (W3 m ρ c (Proc.devRef .tc main_arg2) : S64x64.Idx → EReal) = m ((c.tc : Thread nD τ).loc main_arg2) := by
  show StableHlo.after hostOps0_2 (StableHlo.after hostOps0_1 (StableHlo.after hostOps0 (W0 m ρ c))) (Proc.devRef .tc main_arg2) = _
  after_results_simp

/-- The first bias as a row (buffer of %35). -/
theorem w3_v35 (c : Dev nD) : (W3 m ρ c (Proc.devRef .tc main_v35) : S1x64.Idx → EReal)
    = shapeCast S1x64 (m ((c.tc : Thread nD τ).loc main_arg3)) shapeCasts_S64_S1x64 := by
  show StableHlo.after hostOps0_2 (StableHlo.after hostOps0_1 (StableHlo.after hostOps0 (W0 m ρ c))) (Proc.devRef .tc main_v35) = _
  after_results_simp
  rfl

/-- The second weight is the argument. -/
theorem w3_arg4 (c : Dev nD) : (W3 m ρ c (Proc.devRef .tc main_arg4) : S64x32.Idx → EReal) = m ((c.tc : Thread nD τ).loc main_arg4) := by
  show StableHlo.after hostOps0_2 (StableHlo.after hostOps0_1 (StableHlo.after hostOps0 (W0 m ρ c))) (Proc.devRef .tc main_arg4) = _
  after_results_simp

/-- The second bias is the argument. -/
theorem w3_arg5 (c : Dev nD) : (W3 m ρ c (Proc.devRef .tc main_arg5) : S32.Idx → EReal) = m ((c.tc : Thread nD τ).loc main_arg5) := by
  show StableHlo.after hostOps0_2 (StableHlo.after hostOps0_1 (StableHlo.after hostOps0 (W0 m ρ c))) (Proc.devRef .tc main_arg5) = _
  after_results_simp

end Cert.Gcn.KHost

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibColumnBroadcast.lean ====
/-
  A column broadcast over the columns: a [a, 1] array broadcast to [a, b] reads, at (p, c), the operand's row p.
-/
import Idealize.ShloMosaic.Lib.Pipeline.Value
import Idealize.ShloMosaic.Lib.ValueIdx

noncomputable section

namespace Cert.Lib

open Idealize.ShloMosaic Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Body.lean ====
/-
  The three kernel bodies read at one element of their output block, on the extended reals.

  Body 0 stores max((a ⊙ s) · W + b, 0): at (p, q) the sum over k of (a (p, k) · s (p, 0)) · W (k, q), plus b (0, q), cut below
  at 0 — a is the block of aggregated rows, s the column of per-row scales, W the weight, b the bias row. Body 1 stores
  h · W: at (p, q) the sum over k of h (p, k) · W (k, q). Body 2 stores a ⊙ s + b: at (p, q), a (p, q) · s (p, 0) + b (0, q).
  The roundings to bf16 on the way into the products are the identity on the extended reals.
-/
import proofs.«135906_j90486370992276_2_alg».proof.Proof.Gen.KernelIdeal.Skeleton
import proofs.«135906_j90486370992276_2_alg».proof.Proof.LibPlainDot
import proofs.«135906_j90486370992276_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Body

open Idealize.ShloMosaic Idealize.ShloMosaic.ValueIdx Cert.Lib Cert.KernelIdeal Cert.KernelIdeal.Gen

/-- Body 0 at (p, q). -/
theorem pay0_apply (x0 : Vec Ideal S5000x64 .f32) (x1 : Vec Ideal S5000x1 .f32) (x2 : Vec Ideal S64x64 .f32)
    (x3 : Vec Ideal S1x64 .f32) (p : Fin 5000) (q : Fin 64) :
    k0_pay1 (F := Ideal) x0 x1 x2 x3 (ix2 p q)
      = max ((∑ k : Fin 64, (x0 (ix2 p k) * x1 (ix2 p (0 : Fin 1))) * x2 (ix2 k q)) + x3 (ix2 (0 : Fin 1) q)) 0 := by
  unfold k0_pay1
  rw [maximumf_apply, addf_apply, broadcast_apply]
  have hz : (Scalar.ofBits (F := Ideal) .f32 0x00000000#32 : EReal) = 0 := Ideal.ofBits_zero_f32
  rw [hz]
  refine congrArg (fun v => max v (0 : EReal)) ?_
  refine congrArg₂ (· + ·) ?_ ?_
  · refine (matmul_zero_apply (M := 5000) (K := 64) (N := 64) _ none _ _ p q).trans ?_
    refine Finset.sum_congr rfl fun k _ => ?_
    rw [truncf_apply, truncf_apply, mulf_apply, shapeCast_self, broadcastTo_a1_ab_apply, shapeCast_self]
  · rw [broadcastTo_1b_ab_apply, shapeCast_self]

/-- Body 1 at (p, q). -/
theorem pay1_apply (x0 : Vec Ideal S10000x64 .f32) (x1 : Vec Ideal S64x32 .f32) (p : Fin 10000) (q : Fin 32) :
    k1_pay1 (F := Ideal) x0 x1 (ix2 p q) = ∑ k : Fin 64, x0 (ix2 p k) * x1 (ix2 k q) := by
  unfold k1_pay1
  refine (matmul_zero_apply (M := 10000) (K := 64) (N := 32) _ none _ _ p q).trans ?_
  refine Finset.sum_congr rfl fun k _ => ?_
  rw [truncf_apply, truncf_apply, shapeCast_self]

/-- Body 2 at (p, q). -/
theorem pay2_apply (x0 : Vec Ideal S5000x32 .f32) (x1 : Vec Ideal S5000x1 .f32) (x2 : Vec Ideal S1x32 .f32)
    (p : Fin 5000) (q : Fin 32) :
    k2_pay1 (F := Ideal) x0 x1 x2 (ix2 p q) = x0 (ix2 p q) * x1 (ix2 p (0 : Fin 1)) + x2 (ix2 (0 : Fin 1) q) := by
  unfold k2_pay1
  rw [addf_apply, mulf_apply, shapeCast_self, broadcastTo_a1_ab_apply, shapeCast_self, broadcastTo_1b_ab_apply, shapeCast_self]

end Cert.Gcn.Body

end
-- ==== Proof.Region0.lean ====
/-
  The first kernel region as one array. Its grid has 20 points; point t takes rows 5000·t … 5000·t + 4999 of the
  aggregated features and of the column of scales, the whole weight and the whole bias row, and writes back the same rows
  of its result. So the result array is one function of the four arrays the region finds: at (n, j),
      max (Σ_k (a (n, k) · s (n, 0)) · W (k, j) + b (0, j), 0).
-/
import proofs.«135906_j90486370992276_2_alg».proof.Proof.Gen.KernelIdeal.Frame
import proofs.«135906_j90486370992276_2_alg».proof.Proof.Body
import Idealize.ShloMosaic.Lib.Pipeline.Value

set_option maxRecDepth 16384

noncomputable section

namespace Cert.Gcn.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer's output at node n, column j. -/
def hiddenAt (a : S100000x64.Idx → EReal) (s : S100000x1.Idx → EReal) (W : S64x64.Idx → EReal) (b : S1x64.Idx → EReal)
    (n : Fin 100000) (j : Fin 64) : EReal :=
  max ((∑ k : Fin 64, (a (ix2 n k) * s (ix2 n (0 : Fin 1))) * W (ix2 k j)) + b (ix2 (0 : Fin 1) j)) 0

/-- The layer's output as an array. -/
def hidden (a : S100000x64.Idx → EReal) (s : S100000x1.Idx → EReal) (W : S64x64.Idx → EReal) (b : S1x64.Idx → EReal) :
    S100000x64.Idx → EReal := fun i => hiddenAt a s W b (i 0) (i 1)

/-- The printed index maps over the grid: the row windows move with the point, the weight and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of point t's block is row 5000·t + p of the array. -/
def rowOf (t : Fin cfg0.N) (p : Fin 5000) : Fin 100000 :=
  ⟨t.val * 5000 + p.val, by have h : t.val < 20 := lt_of_lt_of_eq t.isLt N_0; have := p.isLt; omega⟩

theorem blk_a (c : Dev nD) (t : Fin cfg0.N) (p : Fin 5000) (k : Fin 64) :
    (iblk0 V c 0 t : S5000x64.Idx → EReal) (ix2 p k) = (V c main_v34 : S100000x64.Idx → EReal) (ix2 (rowOf t p) k) := by
  obtain ⟨e0, e1, -⟩ := idx_facts t
  show (V c main_v34 : S100000x64.Idx → EReal) (((cfg0.win 0).blk t).view.emb (ix2 p k)) = _
  refine congrArg _ (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 64 + 1 * k.val = k.val; rw [e1]; omega

theorem blk_s (c : Dev nD) (t : Fin cfg0.N) (p : Fin 5000) :
    (iblk0 V c 1 t : S5000x1.Idx → EReal) (ix2 p (0 : Fin 1)) = (V c main_v14 : S100000x1.Idx → EReal) (ix2 (rowOf t p) (0 : Fin 1)) := by
  obtain ⟨-, -, e0, e1, -⟩ := idx_facts t
  show (V c main_v14 : S100000x1.Idx → EReal) (((cfg0.win 1).blk t).view.emb (ix2 p (0 : Fin 1))) = _
  refine congrArg _ (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 1 + 1 * 0 = 0; rw [e1]

theorem blk_W (c : Dev nD) (t : Fin cfg0.N) (k : Fin 64) (q : Fin 64) :
    (iblk0 V c 2 t : S64x64.Idx → EReal) (ix2 k q) = (V c main_arg2 : S64x64.Idx → EReal) (ix2 k q) := by
  obtain ⟨-, -, -, -, e0, e1, -⟩ := idx_facts t
  show (V c main_arg2 : S64x64.Idx → EReal) (((cfg0.win 2).blk t).view.emb (ix2 k q)) = _
  refine congrArg _ (funext fun a => Fin.ext ?_)
  match a with
  | ⟨0, _⟩ => show win0_2.index t (0 : Fin 2) * 64 + 1 * k.val = k.val; rw [e0]; omega
  | ⟨1, _⟩ => show win0_2.index t (1 : Fin 2) * 64 + 1 * q.val = q.val; rw [e1]; omega

theorem blk_b (c : Dev nD) (t : Fin cfg0.N) (q : Fin 64) :
    (iblk0 V c 3 t : S1x64.Idx → EReal) (ix2 (0 : Fin 1) q) = (V c main_v35 : S1x64.Idx → EReal) (ix2 (0 : Fin 1) q) := by
  obtain ⟨-, -, -, -, -, -, e0, e1, -⟩ := idx_facts t
  show (V c main_v35 : S1x64.Idx → EReal) (((cfg0.win 3).blk t).view.emb (ix2 (0 : Fin 1) q)) = _
  refine congrArg _ (funext fun a => Fin.ext ?_)
  match a with
  | ⟨0, _⟩ => show win0_3.index t (0 : Fin 2) * 1 + 1 * 0 = 0; rw [e0]
  | ⟨1, _⟩ => show win0_3.index t (1 : Fin 2) * 64 + 1 * q.val = q.val; rw [e1]; omega

/-- WHAT POINT t WRITES BACK is block t of the layer's output array. -/
theorem flushed_eq (c : Dev nD) (t : Fin cfg0.N) :
    (dat0 V c).flushed 4 t = ((cfg0.win 4).blk t).view.read (Elt Ideal)
      (hidden (V c main_v34) (V c main_v14) (V c main_arg2) (V c main_v35)) := by
  show (cfg0.win 4).cut (grid0.coords t) ((dat0 V c).after 4 t) = _
  rw [after0_4]
  unfold out0_4
  rw [View.canon_unit_zero hz]
  simp only [View.ld_unit_zero (S := S5000x64) hz, View.ld_unit_zero (S := S5000x1) hz, View.ld_unit_zero (S := S64x64) hz,
    View.ld_unit_zero (S := S1x64) hz]
  obtain ⟨-, -, -, -, -, -, -, -, e0, e1⟩ := idx_facts t
  funext j
  obtain ⟨p, q, rfl⟩ : ∃ (p : Fin 5000) (q : Fin 64), j = ix2 p q := ⟨j 0, j 1, eq_ix2 j⟩
  have hemb : ((cfg0.win 4).blk t).view.emb (ix2 p q) = (ix2 (rowOf t p) q : S100000x64.Idx) := by
    funext a; apply Fin.ext
    match a with
    | ⟨0, _⟩ => show win0_4.index t (0 : Fin 2) * 5000 + 1 * p.val = t.val * 5000 + p.val; rw [e0]; omega
    | ⟨1, _⟩ => show win0_4.index t (1 : Fin 2) * 64 + 1 * q.val = q.val; rw [e1]; omega
  refine (Body.pay0_apply (iblk0 V c 0 t) (iblk0 V c 1 t) (iblk0 V c 2 t) (iblk0 V c 3 t) p q).trans ?_
  rw [View.read_apply, hemb]
  show _ = hiddenAt _ _ _ _ (rowOf t p) q
  unfold hiddenAt
  rw [blk_s, blk_b]
  refine congrArg (fun v => max (v + _) (0 : EReal)) (Finset.sum_congr rfl fun k _ => ?_)
  rw [blk_a, blk_W]

theorem mem_blk (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v36).slice (win0_4.rect t)).set ↔ _
  rw [View.set_slice_whole, Rect.mem_set_unit]
  exact Iff.rfl

/-- THE ARRAY after the region: the layer's output of the arrays the region finds. -/
theorem final (c : Dev nD) : (dat0 V c).arrAt 4 cfg0.N
    = hidden (V c main_v34) (V c main_v14) (V c main_arg2) (V c main_v35) :=
  (dat0 V c).arrAt_eq_of_cover 4 _ (fun t _ => flushed_eq V c t) fun i => by
    have hi0 : (i 0).val < 100000 := (i 0).isLt
    have hi1 : (i 1).val < 64 := (i 1).isLt
    let t : Fin cfg0.N := ⟨(i 0).val / 5000, lt_of_lt_of_eq (b := 20) (by omega) N_0.symm⟩
    obtain ⟨-, -, -, -, -, -, -, -, e0, e1⟩ := idx_facts t
    have ht : t.val = (i 0).val / 5000 := rfl
    refine ⟨t, flush0_4 t, ?_⟩
    rw [mem_blk]
    intro a
    match a with
    | ⟨0, _⟩ => show win0_4.index t (0 : Fin 2) * 5000 ≤ (i 0).val ∧ (i 0).val < win0_4.index t (0 : Fin 2) * 5000 + 5000; rw [e0, ht]; omega
    | ⟨1, _⟩ => show win0_4.index t (1 : Fin 2) * 64 ≤ (i 1).val ∧ (i 1).val < win0_4.index t (1 : Fin 2) * 64 + 64; rw [e1]; omega

end Cert.Gcn.Region0

end
-- ==== Proof.Region1.lean ====
/-
  The second kernel region as one array. Its grid has 10 points; point t takes rows 10000·t … 10000·t + 9999 of the
  hidden features and the whole weight, and writes back the same rows of the product. So the result array is, at (n, j),
  the sum over k of h (n, k) · W (k, j).
-/
import proofs.«135906_j90486370992276_2_alg».proof.Proof.Gen.KernelIdeal.Frame
import proofs.«135906_j90486370992276_2_alg».proof.Proof.Body
import Idealize.ShloMosaic.Lib.Pipeline.Value

set_option maxRecDepth 16384

noncomputable section

namespace Cert.Gcn.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The projected features at node n, column j. -/
def projAt (h : S100000x64.Idx → EReal) (W : S64x32.Idx → EReal) (n : Fin 100000) (j : Fin 32) : EReal :=
  ∑ k : Fin 64, h (ix2 n k) * W (ix2 k j)

/-- The projected features as an array. -/
def proj (h : S100000x64.Idx → EReal) (W : S64x32.Idx → EReal) : S100000x32.Idx → EReal := fun i => projAt h W (i 0) (i 1)

/-- The printed index maps over the grid: the row windows move with the point, the weight stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of point t's block is row 10000·t + p of the array. -/
def rowOf (t : Fin cfg1.N) (p : Fin 10000) : Fin 100000 :=
  ⟨t.val * 10000 + p.val, by have h : t.val < 10 := lt_of_lt_of_eq t.isLt N_1; have := p.isLt; omega⟩

theorem blk_h (c : Dev nD) (t : Fin cfg1.N) (p : Fin 10000) (k : Fin 64) :
    (iblk1 V c 0 t : S10000x64.Idx → EReal) (ix2 p k) = (V c main_v36 : S100000x64.Idx → EReal) (ix2 (rowOf t p) k) := by
  obtain ⟨e0, e1, -⟩ := idx_facts t
  show (V c main_v36 : S100000x64.Idx → EReal) (((cfg1.win 0).blk t).view.emb (ix2 p k)) = _
  refine congrArg _ (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

theorem blk_W (c : Dev nD) (t : Fin cfg1.N) (k : Fin 64) (q : Fin 32) :
    (iblk1 V c 1 t : S64x32.Idx → EReal) (ix2 k q) = (V c main_arg4 : S64x32.Idx → EReal) (ix2 k q) := by
  obtain ⟨-, -, e0, e1, -⟩ := idx_facts t
  show (V c main_arg4 : S64x32.Idx → EReal) (((cfg1.win 1).blk t).view.emb (ix2 k q)) = _
  refine congrArg _ (funext fun a => Fin.ext ?_)
  match a with
  | ⟨0, _⟩ => show win1_1.index t (0 : Fin 2) * 64 + 1 * k.val = k.val; rw [e0]; omega
  | ⟨1, _⟩ => show win1_1.index t (1 : Fin 2) * 32 + 1 * q.val = q.val; rw [e1]; omega

/-- WHAT POINT t WRITES BACK is block t of the projected array. -/
theorem flushed_eq (c : Dev nD) (t : Fin cfg1.N) :
    (dat1 V c).flushed 2 t = ((cfg1.win 2).blk t).view.read (Elt Ideal) (proj (V c main_v36) (V c main_arg4)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x32) hz]
  obtain ⟨-, -, -, -, e0, e1⟩ := idx_facts t
  funext j
  obtain ⟨p, q, rfl⟩ : ∃ (p : Fin 10000) (q : Fin 32), j = ix2 p q := ⟨j 0, j 1, eq_ix2 j⟩
  have hemb : ((cfg1.win 2).blk t).view.emb (ix2 p q) = (ix2 (rowOf t p) q : S100000x32.Idx) := by
    funext a; apply Fin.ext
    match a with
    | ⟨0, _⟩ => show win1_2.index t (0 : Fin 2) * 10000 + 1 * p.val = t.val * 10000 + p.val; rw [e0]; omega
    | ⟨1, _⟩ => show win1_2.index t (1 : Fin 2) * 32 + 1 * q.val = q.val; rw [e1]; omega
  refine (Body.pay1_apply (iblk1 V c 0 t) (iblk1 V c 1 t) p q).trans ?_
  rw [View.read_apply, hemb]
  show _ = projAt _ _ (rowOf t p) q
  unfold projAt
  refine Finset.sum_congr rfl fun k _ => ?_
  rw [blk_h, blk_W]

theorem mem_blk (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v37).slice (win1_2.rect t)).set ↔ _
  rw [View.set_slice_whole, Rect.mem_set_unit]
  exact Iff.rfl

/-- THE ARRAY after the region: the projection of the arrays the region finds. -/
theorem final (c : Dev nD) : (dat1 V c).arrAt 2 cfg1.N = proj (V c main_v36) (V c main_arg4) :=
  (dat1 V c).arrAt_eq_of_cover 2 _ (fun t _ => flushed_eq V c t) fun i => by
    have hi0 : (i 0).val < 100000 := (i 0).isLt
    have hi1 : (i 1).val < 32 := (i 1).isLt
    let t : Fin cfg1.N := ⟨(i 0).val / 10000, lt_of_lt_of_eq (b := 10) (by omega) N_1.symm⟩
    obtain ⟨-, -, -, -, e0, e1⟩ := idx_facts t
    have ht : t.val = (i 0).val / 10000 := rfl
    refine ⟨t, flush1_2 t, ?_⟩
    rw [mem_blk]
    intro a
    match a with
    | ⟨0, _⟩ => show win1_2.index t (0 : Fin 2) * 10000 ≤ (i 0).val ∧ (i 0).val < win1_2.index t (0 : Fin 2) * 10000 + 10000; rw [e0, ht]; omega
    | ⟨1, _⟩ => show win1_2.index t (1 : Fin 2) * 32 ≤ (i 1).val ∧ (i 1).val < win1_2.index t (1 : Fin 2) * 32 + 32; rw [e1]; omega

end Cert.Gcn.Region1

end
-- ==== Proof.Region2.lean ====
/-
  The third kernel region as one array. Its grid has 20 points; point t takes rows 5000·t … 5000·t + 4999 of the second
  aggregate and of the column of scales, and the whole bias row, and writes back the same rows of its result. So the
  result array is, at (n, j), a (n, j) · s (n, 0) + b (0, j).
-/
import proofs.«135906_j90486370992276_2_alg».proof.Proof.Gen.KernelIdeal.Frame
import proofs.«135906_j90486370992276_2_alg».proof.Proof.Body
import Idealize.ShloMosaic.Lib.Pipeline.Value

set_option maxRecDepth 16384

noncomputable section

namespace Cert.Gcn.Region2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The scaled and shifted aggregate at node n, column j. -/
def scaledAt (a : S100000x32.Idx → EReal) (s : S100000x1.Idx → EReal) (b : S1x32.Idx → EReal) (n : Fin 100000) (j : Fin 32) : EReal :=
  a (ix2 n j) * s (ix2 n (0 : Fin 1)) + b (ix2 (0 : Fin 1) j)

/-- The scaled and shifted aggregate as an array. -/
def scaled (a : S100000x32.Idx → EReal) (s : S100000x1.Idx → EReal) (b : S1x32.Idx → EReal) : S100000x32.Idx → EReal :=
  fun i => scaledAt a s b (i 0) (i 1)

/-- The printed index maps over the grid: the row windows move with the point, the bias stays. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of point t's block is row 5000·t + p of the array. -/
def rowOf (t : Fin cfg2.N) (p : Fin 5000) : Fin 100000 :=
  ⟨t.val * 5000 + p.val, by have h : t.val < 20 := lt_of_lt_of_eq t.isLt N_2; have := p.isLt; omega⟩

theorem blk_a (c : Dev nD) (t : Fin cfg2.N) (p : Fin 5000) (q : Fin 32) :
    (iblk2 V c 0 t : S5000x32.Idx → EReal) (ix2 p q) = (V c main_v57 : S100000x32.Idx → EReal) (ix2 (rowOf t p) q) := by
  obtain ⟨e0, e1, -⟩ := idx_facts t
  show (V c main_v57 : S100000x32.Idx → EReal) (((cfg2.win 0).blk t).view.emb (ix2 p q)) = _
  refine congrArg _ (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 32 + 1 * q.val = q.val; rw [e1]; omega

theorem blk_s (c : Dev nD) (t : Fin cfg2.N) (p : Fin 5000) :
    (iblk2 V c 1 t : S5000x1.Idx → EReal) (ix2 p (0 : Fin 1)) = (V c main_v14 : S100000x1.Idx → EReal) (ix2 (rowOf t p) (0 : Fin 1)) := by
  obtain ⟨-, -, e0, e1, -⟩ := idx_facts t
  show (V c main_v14 : S100000x1.Idx → EReal) (((cfg2.win 1).blk t).view.emb (ix2 p (0 : Fin 1))) = _
  refine congrArg _ (funext fun a => Fin.ext ?_)
  match a with
  | ⟨0, _⟩ => show win2_1.index t (0 : Fin 2) * 5000 + 1 * p.val = t.val * 5000 + p.val; rw [e0]; omega
  | ⟨1, _⟩ => show win2_1.index t (1 : Fin 2) * 1 + 1 * 0 = 0; rw [e1]

theorem blk_b (c : Dev nD) (t : Fin cfg2.N) (q : Fin 32) :
    (iblk2 V c 2 t : S1x32.Idx → EReal) (ix2 (0 : Fin 1) q) = (V c main_v58 : S1x32.Idx → EReal) (ix2 (0 : Fin 1) q) := by
  obtain ⟨-, -, -, -, e0, e1, -⟩ := idx_facts t
  show (V c main_v58 : S1x32.Idx → EReal) (((cfg2.win 2).blk t).view.emb (ix2 (0 : Fin 1) q)) = _
  refine congrArg _ (funext fun a => Fin.ext ?_)
  match a with
  | ⟨0, _⟩ => show win2_2.index t (0 : Fin 2) * 1 + 1 * 0 = 0; rw [e0]
  | ⟨1, _⟩ => show win2_2.index t (1 : Fin 2) * 32 + 1 * q.val = q.val; rw [e1]; omega

/-- WHAT POINT t WRITES BACK is block t of the scaled and shifted array. -/
theorem flushed_eq (c : Dev nD) (t : Fin cfg2.N) :
    (dat2 V c).flushed 3 t = ((cfg2.win 3).blk t).view.read (Elt Ideal)
      (scaled (V c main_v57) (V c main_v14) (V c main_v58)) := by
  show (cfg2.win 3).cut (grid2.coords t) ((dat2 V c).after 3 t) = _
  rw [after2_3]
  unfold out2_3
  rw [View.canon_unit_zero hz]
  simp only [View.ld_unit_zero (S := S5000x32) hz, View.ld_unit_zero (S := S5000x1) hz, View.ld_unit_zero (S := S1x32) hz]
  obtain ⟨-, -, -, -, -, -, e0, e1⟩ := idx_facts t
  funext j
  obtain ⟨p, q, rfl⟩ : ∃ (p : Fin 5000) (q : Fin 32), j = ix2 p q := ⟨j 0, j 1, eq_ix2 j⟩
  have hemb : ((cfg2.win 3).blk t).view.emb (ix2 p q) = (ix2 (rowOf t p) q : S100000x32.Idx) := by
    funext a; apply Fin.ext
    match a with
    | ⟨0, _⟩ => show win2_3.index t (0 : Fin 2) * 5000 + 1 * p.val = t.val * 5000 + p.val; rw [e0]; omega
    | ⟨1, _⟩ => show win2_3.index t (1 : Fin 2) * 32 + 1 * q.val = q.val; rw [e1]; omega
  refine (Body.pay2_apply (iblk2 V c 0 t) (iblk2 V c 1 t) (iblk2 V c 2 t) p q).trans ?_
  rw [View.read_apply, hemb]
  show _ = scaledAt _ _ _ (rowOf t p) q
  unfold scaledAt
  rw [blk_a, blk_s, blk_b]

theorem mem_blk (t : Fin cfg2.N) (i : S100000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v59).slice (win2_3.rect t)).set ↔ _
  rw [View.set_slice_whole, Rect.mem_set_unit]
  exact Iff.rfl

/-- THE ARRAY after the region: the scaled and shifted aggregate of the arrays the region finds. -/
theorem final (c : Dev nD) : (dat2 V c).arrAt 3 cfg2.N = scaled (V c main_v57) (V c main_v14) (V c main_v58) :=
  (dat2 V c).arrAt_eq_of_cover 3 _ (fun t _ => flushed_eq V c t) fun i => by
    have hi0 : (i 0).val < 100000 := (i 0).isLt
    have hi1 : (i 1).val < 32 := (i 1).isLt
    let t : Fin cfg2.N := ⟨(i 0).val / 5000, lt_of_lt_of_eq (b := 20) (by omega) N_2.symm⟩
    obtain ⟨-, -, -, -, -, -, e0, e1⟩ := idx_facts t
    have ht : t.val = (i 0).val / 5000 := rfl
    refine ⟨t, flush2_3 t, ?_⟩
    rw [mem_blk]
    intro a
    match a with
    | ⟨0, _⟩ => show win2_3.index t (0 : Fin 2) * 5000 ≤ (i 0).val ∧ (i 0).val < win2_3.index t (0 : Fin 2) * 5000 + 5000; rw [e0, ht]; omega
    | ⟨1, _⟩ => show win2_3.index t (1 : Fin 2) * 32 ≤ (i 1).val ∧ (i 1).val < win2_3.index t (1 : Fin 2) * 32 + 32; rw [e1]; omega

end Cert.Gcn.Region2

end
-- ==== Proof.KernelValue.lean ====
/-
  The kernel program's result array as one term of the launch contents of the arguments, on the extended reals. The
  first region's output is the first layer's hidden features (the reference's first aggregate, scaled, through the first
  weight, bias and cut at 0); the second region projects them through the second weight; the stretch after it aggregates
  the projected features over the edges; the third region scales the aggregate per node and adds the second bias.
-/
import proofs.«135906_j90486370992276_2_alg».proof.Proof.KernelHost
import proofs.«135906_j90486370992276_2_alg».proof.Proof.Region0
import proofs.«135906_j90486370992276_2_alg».proof.Proof.Region1
import proofs.«135906_j90486370992276_2_alg».proof.Proof.Region2

set_option maxRecDepth 16384

noncomputable section

namespace Cert.Gcn.KValue

open Cert.KernelIdeal Cert.KernelIdeal.Gen Cert.Gcn.KHost
open Idealize.ShloMosaic Idealize.ShloMosaic.TcCoe Idealize.SL.Sem Idealize.ShloMosaic.StableHlo
open Cert.ReferenceIdeal.ReadP (val_main_v1 val_main_v3 val_main_v6 val_main_v13 val_main_v19 val_main_v33)

variable (m : (ℓ : Loc nD τ sig) → Buf (Elt Ideal) ℓ) (ρ : Dev nD → PrngReg)

/-- The first layer's hidden features, as the first region leaves them. -/
def hid (c : Dev nD) : S100000x64.Idx → EReal :=
  Region0.hidden (val_main_v33 (F := Ideal) (m ((c.tc : Thread nD τ).loc main_arg0)) (m ((c.tc : Thread nD τ).loc main_arg1)))
    (shapeCast S100000x1 (val_main_v13 (F := Ideal) (m ((c.tc : Thread nD τ).loc main_arg1))) shapeCasts_S100000_S100000x1)
    (m ((c.tc : Thread nD τ).loc main_arg2))
    (shapeCast S1x64 (m ((c.tc : Thread nD τ).loc main_arg3)) shapeCasts_S64_S1x64)

/-- The hidden features projected through the second weight, as the second region leaves them. -/
def prj (c : Dev nD) : S100000x32.Idx → EReal := Region1.proj (hid m c) (m ((c.tc : Thread nD τ).loc main_arg4))

/-- After the first region its output buffer holds the hidden features. -/
theorem w4_v36 (c : Dev nD) : (W4 m ρ c (Proc.devRef .tc main_v36) : S100000x64.Idx → EReal) = hid m c := by
  have e : W4 m ρ c (Proc.devRef .tc main_v36) = (dat0 (V3 m ρ) c).arrAt 4 cfg0.N := W4_arr m ρ c 4
  rw [e, Region0.final (V3 m ρ) c]
  have e1 : (V3 m ρ c main_v34 : S100000x64.Idx → EReal) = _ := w3_v34 m ρ c
  have e2 : (V3 m ρ c main_v14 : S100000x1.Idx → EReal) = _ := w3_v14 m ρ c
  have e3 : (V3 m ρ c main_arg2 : S64x64.Idx → EReal) = _ := w3_arg2 m ρ c
  have e4 : (V3 m ρ c main_v35 : S1x64.Idx → EReal) = _ := w3_v35 m ρ c
  rw [e1, e2, e3, e4]
  rfl

/-- After the second region its output buffer holds the projected features. -/
theorem w5_v37 (c : Dev nD) : (W5 m ρ c (Proc.devRef .tc main_v37) : S100000x32.Idx → EReal) = prj m c := by
  have e : W5 m ρ c (Proc.devRef .tc main_v37) = (dat1 (V4 m ρ) c).arrAt 2 cfg1.N := W5_arr m ρ c 2
  rw [e, Region1.final (V4 m ρ) c]
  have e1 : (V4 m ρ c main_v36 : S100000x64.Idx → EReal) = _ := w4_v36 m ρ c
  have e2 : (V4 m ρ c main_arg4 : S64x32.Idx → EReal) = m ((c.tc : Thread nD τ).loc main_arg4) :=
    (W4_of_ne m ρ c main_arg4 (by decide)).trans (w3_arg4 m ρ c)
  rw [e1, e2]
  rfl

/-- The buffers the two first regions do not write keep what the first stretch left. -/
theorem w5_v1 (c : Dev nD) : (W5 m ρ c (Proc.devRef .tc main_v1) : S1250000.Idx → BitVec 32)
    = val_main_v1 (F := Ideal) (m ((c.tc : Thread nD τ).loc main_arg1)) :=
  ((W5_of_ne m ρ c main_v1 (by decide)).trans (W4_of_ne m ρ c main_v1 (by decide))).trans (w3_v1 m ρ c)
theorem w5_v3 (c : Dev nD) : (W5 m ρ c (Proc.devRef .tc main_v3) : S1250000.Idx → BitVec 32)
    = val_main_v3 (F := Ideal) (m ((c.tc : Thread nD τ).loc main_arg1)) :=
  ((W5_of_ne m ρ c main_v3 (by decide)).trans (W4_of_ne m ρ c main_v3 (by decide))).trans (w3_v3 m ρ c)
theorem w5_v13 (c : Dev nD) : (W5 m ρ c (Proc.devRef .tc main_v13) : S100000.Idx → EReal)
    = val_main_v13 (F := Ideal) (m ((c.tc : Thread nD τ).loc main_arg1)) :=
  ((W5_of_ne m ρ c main_v13 (by decide)).trans (W4_of_ne m ρ c main_v13 (by decide))).trans (w3_v13 m ρ c)
theorem w5_v14 (c : Dev nD) : (W5 m ρ c (Proc.devRef .tc main_v14) : S100000x1.Idx → EReal)
    = shapeCast S100000x1 (val_main_v13 (F := Ideal) (m ((c.tc : Thread nD τ).loc main_arg1))) shapeCasts_S100000_S100000x1 :=
  ((W5_of_ne m ρ c main_v14 (by decide)).trans
    ((W4_arr m ρ c 1).trans (((dat0 (V3 m ρ) c).arrAt_in 1 rfl _).trans (A_eq0 (V3 m ρ) c 1)))).trans (w3_v14 m ρ c)
theorem w5_arg5 (c : Dev nD) : (W5 m ρ c (Proc.devRef .tc main_arg5) : S32.Idx → EReal) = m ((c.tc : Thread nD τ).loc main_arg5) :=
  ((W5_of_ne m ρ c main_arg5 (by decide)).trans (W4_of_ne m ρ c main_arg5 (by decide))).trans (w3_arg5 m ρ c)

/-- The second aggregate: the projected features gathered at the sources, scaled by the sources' scales, accumulated at
    the destinations. -/
def agg2 (c : Dev nD) : S100000x32.Idx → EReal :=
  Host.scatterAdd (F := Ideal) scatter_S100000x32_S1250000x1_S1250000x32_1_0_0_1
    (broadcastInDim S100000x32 ![] bcast_S_S100000x32 (constant (F := Ideal) S_ .f32 0x00000000#32))
    (val_main_v6 (F := Ideal) (m ((c.tc : Thread nD τ).loc main_arg1)))
    (mulf (Host.gather gather_S100000x32_S1250000x1_S1250000x32_1_0_n_n_0_1_132 (prj m c)
        (val_main_v19 (F := Ideal) (m ((c.tc : Thread nD τ).loc main_arg1))))
      (broadcastInDim S1250000x32 ![0, 1] bcast_S1250000x1_S1250000x32_0_1
        (broadcastInDim S1250000x1 ![0] bcast_S1250000_S1250000x1_0
          (Host.gather gather_S100000_S1250000x1_S1250000_n_0_n_n_0_1_1
            (val_main_v13 (F := Ideal) (m ((c.tc : Thread nD τ).loc main_arg1)))
            (val_main_v19 (F := Ideal) (m ((c.tc : Thread nD τ).loc main_arg1)))))))

/-- The stretch between the second and the third region leaves the second aggregate in the buffer of %57. -/
theorem w6_v57 (c : Dev nD) : (W6 m ρ c (Proc.devRef .tc main_v57) : S100000x32.Idx → EReal) = agg2 m c := by
  show StableHlo.after hostOps2 (W5 m ρ c) (Proc.devRef .tc main_v57) = _
  after_results_simp
  rw [w5_v1 m ρ c, w5_v3 m ρ c, w5_v13 m ρ c, w5_v37 m ρ c]
  rfl

theorem w6_v14 (c : Dev nD) : (W6 m ρ c (Proc.devRef .tc main_v14) : S100000x1.Idx → EReal)
    = shapeCast S100000x1 (val_main_v13 (F := Ideal) (m ((c.tc : Thread nD τ).loc main_arg1))) shapeCasts_S100000_S100000x1 := by
  show StableHlo.after hostOps2 (W5 m ρ c) (Proc.devRef .tc main_v14) = _
  after_results_simp
  exact w5_v14 m ρ c

theorem w6_v58 (c : Dev nD) : (W6 m ρ c (Proc.devRef .tc main_v58) : S1x32.Idx → EReal)
    = shapeCast S1x32 (m ((c.tc : Thread nD τ).loc main_arg5)) shapeCasts_S32_S1x32 := by
  show StableHlo.after hostOps2 (W5 m ρ c) (Proc.devRef .tc main_v58) = _
  after_results_simp
  rw [w5_arg5 m ρ c]
  rfl

/-- THE RESULT ARRAY: the second aggregate scaled per node, plus the second bias. -/
def result (c : Dev nD) : S100000x32.Idx → EReal :=
  Region2.scaled (agg2 m c)
    (shapeCast S100000x1 (val_main_v13 (F := Ideal) (m ((c.tc : Thread nD τ).loc main_arg1))) shapeCasts_S100000_S100000x1)
    (shapeCast S1x32 (m ((c.tc : Thread nD τ).loc main_arg5)) shapeCasts_S32_S1x32)

theorem w7_v59 (c : Dev nD) : (W7 m ρ c (Proc.devRef .tc main_v59) : S100000x32.Idx → EReal) = result m c := by
  have e : W7 m ρ c (Proc.devRef .tc main_v59) = (dat2 (V6 m ρ) c).arrAt 3 cfg2.N := W7_arr m ρ c 3
  rw [e, Region2.final (V6 m ρ) c]
  have e1 : (V6 m ρ c main_v57 : S100000x32.Idx → EReal) = _ := w6_v57 m ρ c
  have e2 : (V6 m ρ c main_v14 : S100000x1.Idx → EReal) = _ := w6_v14 m ρ c
  have e3 : (V6 m ρ c main_v58 : S1x32.Idx → EReal) = _ := w6_v58 m ρ c
  rw [e1, e2, e3]
  rfl

end Cert.Gcn.KValue

end
-- ==== Proof.LibEdgeGatherScatter.lean ====
/-
  Gathers and accumulating scatters keyed by ONE integer per edge, in two layouts. Independent of any program.

  An edge list of length `E` carries, per edge `e`, one integer `idx[e, 0]` (the start indices have shape `[E, 1]`).

  1. GATHER.  Rows of a matrix `x : [N, D]` taken at the edges' integers (`x[idx]`: offset axis 1, collapsed axis 0,
     slices `[1, D]`) give `[E, D]`, whose element `(e, c)` is `x` at row `clampRow idx e` — the integer read signed
     and clamped into `[0, N − 1]`, as the gather clamps every start index — and column `c`.  The same integers taken
     along the MIDDLE axis of `x : [B, N, D]` (`x[:, idx, :]`: offset axes 0 and 2, collapsed axis 1, slices
     `[B, 1, D]`) give `[B, E, D]`, whose element `(b, e, o)` is `x` at `(b, clampRow idx e, o)`.

  2. ACCUMULATING SCATTER over the extended reals.  Updates `[E, D]` added into `x : [N, D]` at the rows the edges'
     integers name (window axis 1, inserted axis 0) leave at `(n, c)` the value `x (n, c)` plus the sum, over the edges
     whose integer, read signed, IS `n`, of the update at `(e, c)`; an edge whose integer is outside `[0, N)` lands
     nowhere.  Updates `[B, E, D]` added into `x : [B, N, D]` along the middle axis (window axes 0 and 2, inserted
     axis 1) leave at `(b, n, o)` the value `x (b, n, o)` plus the sum over the same edges of the update at `(b, e, o)`.
     In both layouts the sum ranges over the SAME set of edges, which is what lets a scatter over a matrix whose rows
     pack `B` blocks of width `O` be compared with the scatter over the unpacked `[B, N, O]` array.
-/
import Idealize.ShloMosaic.Lib.ValueIdx
import Idealize.ShloMosaic.PureOps.Ideal

noncomputable section

namespace Cert.Lib

open Idealize.ShloMosaic Idealize.ShloMosaic.ValueIdx

/-! ## The row an edge's integer selects -/

/-- The row of an `N`-row operand that edge `e` reads: its integer `idx[e, 0]`, signed, clamped into `[0, N − 1]`. -/
def clampRow {E w : Nat} (N : Nat) (hN : 0 < N) (idx : IVec ⟨2, ![E, 1]⟩ w) (e : Fin E) : Fin N :=
  ⟨min (idx (ix2 e (0 : Fin 1))).toInt.toNat (N - 1), by omega⟩

/-! ## Gathers -/

section Gather
variable {α : Type}

/-- The dimension numbers of `x[idx]` for an operand `[N, D]`, start indices `[E, 1]` and result `[E, D]`. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- ROWS OF A MATRIX at `(e, c)`: the operand at row `clampRow idx e`, column `c`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c) = x (ix2 (clampRow N hN idx e) c) := by
  unfold Host.gather
  congr 1
  funext a
  refine Fin.ext ?_
  match a with
  | ⟨0, _⟩ =>
    show (rowGatherDims N D E wf).start (ix2 e c) idx 0 + (rowGatherDims N D E wf).batchCoord (ix2 e c) 0
        + (rowGatherDims N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c) ⟨List.idxOf (0 : Fin 2) (rowGatherDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
        + (rowGatherDims N D E wf).offCoord (ix2 e c) 1 = _
    rw [GatherDims.batchCoord_eq_zero _ _ _ List.not_mem_nil]
    unfold GatherDims.start
    rw [dif_neg (show ¬ (1 : Fin 2) ∈ ([0] : List (Fin 2)) from by decide)]
    have hk : (1 : Fin 2) ∈ (rowGatherDims N D E wf).sKept :=
      (GatherDims.mem_sKept _ _).mpr ⟨(show ¬ (1 : Fin 2) ∈ ([0] : List (Fin 2)) from by decide), List.not_mem_nil⟩
    unfold GatherDims.offCoord
    rw [dif_pos hk]
    simp only [Nat.zero_add, Nat.add_zero]
    rfl

/-- The dimension numbers of `x[:, idx, :]` for an operand `[B, N, D]`, start indices `[E, 1]` and result
    `[B, E, D]`. -/
abbrev midGatherDims (B N D E : Nat)
    (wf : GatherDims.WF ⟨3, ![B, N, D]⟩ ⟨2, ![E, 1]⟩ ⟨3, ![B, E, D]⟩ [0, 2] [1] [] [1] [] 1 ![B, 1, D]) :
    GatherDims ⟨3, ![B, N, D]⟩ ⟨2, ![E, 1]⟩ ⟨3, ![B, E, D]⟩ where
  offsetDims := [0, 2]
  collapsedSliceDims := [1]
  operandBatchingDims := []
  startIndicesBatchingDims := []
  startIndexMap := [1]
  indexVectorDim := 1
  sliceSizes := ![B, 1, D]
  wf := wf

/-- THE MIDDLE AXIS OF A RANK-3 ARRAY at `(b, e, o)`: the operand at `(b, clampRow idx e, o)`. -/
theorem gather_mid_apply {B N D E w : Nat} (hN : 0 < N)
    (wf : GatherDims.WF ⟨3, ![B, N, D]⟩ ⟨2, ![E, 1]⟩ ⟨3, ![B, E, D]⟩ [0, 2] [1] [] [1] [] 1 ![B, 1, D])
    (x : (⟨3, ![B, N, D]⟩ : Shape).Idx → α) (idx : IVec ⟨2, ![E, 1]⟩ w) (b : Fin B) (e : Fin E) (o : Fin D) :
    Host.gather (midGatherDims B N D E wf) x idx (ix3 b e o) = x (ix3 b (clampRow N hN idx e) o) := by
  unfold Host.gather
  congr 1
  funext a
  refine Fin.ext ?_
  match a with
  | ⟨0, _⟩ =>
    show (midGatherDims B N D E wf).start (ix3 b e o) idx 0 + (midGatherDims B N D E wf).batchCoord (ix3 b e o) 0
        + (midGatherDims B N D E wf).offCoord (ix3 b e o) 0 = _
    rw [GatherDims.batchCoord_eq_zero _ _ _ List.not_mem_nil]
    unfold GatherDims.start
    rw [dif_neg (show ¬ (0 : Fin 3) ∈ ([1] : List (Fin 3)) from by decide)]
    have hk : (0 : Fin 3) ∈ (midGatherDims B N D E wf).sKept :=
      (GatherDims.mem_sKept _ _).mpr ⟨(show ¬ (0 : Fin 3) ∈ ([1] : List (Fin 3)) from by decide), List.not_mem_nil⟩
    unfold GatherDims.offCoord
    rw [dif_pos hk]
    simp only [Nat.zero_add, Nat.add_zero]
    rfl
  | ⟨1, _⟩ =>
    show (midGatherDims B N D E wf).start (ix3 b e o) idx 1 + (midGatherDims B N D E wf).batchCoord (ix3 b e o) 1
        + (midGatherDims B N D E wf).offCoord (ix3 b e o) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGatherDims B N D E wf).startIndexMap from List.mem_singleton.mpr rfl)]
    have hsi : (midGatherDims B N D E wf).siIdx (ix3 b e o) ⟨List.idxOf (1 : Fin 3) (midGatherDims B N D E wf).startIndexMap,
        List.idxOf_lt_length_iff.2 (List.mem_singleton.mpr rfl)⟩ = ix2 e (0 : Fin 1) := by
      funext b'; refine Fin.ext ?_
      match b' with
      | ⟨0, _⟩ => rfl
      | ⟨1, _⟩ => rfl
    rw [hsi]
    rfl
  | ⟨2, _⟩ =>
    show (midGatherDims B N D E wf).start (ix3 b e o) idx 2 + (midGatherDims B N D E wf).batchCoord (ix3 b e o) 2
        + (midGatherDims B N D E wf).offCoord (ix3 b e o) 2 = _
    rw [GatherDims.batchCoord_eq_zero _ _ _ List.not_mem_nil]
    unfold GatherDims.start
    rw [dif_neg (show ¬ (2 : Fin 3) ∈ ([1] : List (Fin 3)) from by decide)]
    have hk : (2 : Fin 3) ∈ (midGatherDims B N D E wf).sKept :=
      (GatherDims.mem_sKept _ _).mpr ⟨(show ¬ (2 : Fin 3) ∈ ([1] : List (Fin 3)) from by decide), List.not_mem_nil⟩
    unfold GatherDims.offCoord
    rw [dif_pos hk]
    simp only [Nat.zero_add, Nat.add_zero]
    rfl

end Gather

/-! ## Accumulating scatters over the extended reals -/

section Scatter

/-- An operand axis receives a window coordinate exactly when it is not an inserted axis. -/
theorem mem_sKept_iff {s si u : Shape} (d : ScatterDims s si u) (a : Fin s.rank) :
    a ∈ d.sKept ↔ a ∉ d.insertedWindowDims := by
  simp [ScatterDims.sKept, Shape.kept, List.mem_filter, List.mem_finRange]

/-! ### Rows of a matrix -/

/-- The dimension numbers of `x.at[idx].add(upd)` for an operand `[N, D]`, scatter indices `[E, 1]` and updates
    `[E, D]`. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)
  (idx : IVec ⟨2, ![E, 1]⟩ w)

/-- On the row axis the window of update `(e, c)` starts at edge `e`'s integer, read signed, … -/
theorem rowScatter_start0 (e : Fin E) (c : Fin D) :
    (rowScatterDims N D E wf).start (ix2 e c) idx 0 = (idx (ix2 e (0 : Fin 1))).toInt := by
  unfold ScatterDims.start
  rw [dif_pos (show (0 : Fin 2) ∈ (rowScatterDims N D E wf).scatterDimsToOperandDims from List.mem_singleton.mpr rfl)]
  have hsi : (rowScatterDims N D E wf).siIdx (ix2 e c) ⟨List.idxOf (0 : Fin 2) (rowScatterDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at zero. -/
theorem rowScatter_start1 (j : (⟨2, ![E, D]⟩ : Shape).Idx) : (rowScatterDims N D E wf).start j idx 1 = 0 := by
  unfold ScatterDims.start
  rw [dif_neg (show ¬ (1 : Fin 2) ∈ ([0] : List (Fin 2)) from by decide)]

/-- The window coordinate is zero on the row axis … -/
theorem rowScatter_window0 (j : (⟨2, ![E, D]⟩ : Shape).Idx) : (rowScatterDims N D E wf).window j 0 = 0 := by
  unfold ScatterDims.window
  rw [dif_neg (fun h => ((mem_sKept_iff _ _).mp h) (List.mem_singleton.mpr rfl))]

/-- … and the update's column on the column axis. -/
theorem rowScatter_window1 (e : Fin E) (c : Fin D) : (rowScatterDims N D E wf).window (ix2 e c) 1 = c.val := by
  have hk : (1 : Fin 2) ∈ (rowScatterDims N D E wf).sKept :=
    (mem_sKept_iff _ _).mpr (show ¬ (1 : Fin 2) ∈ ([0] : List (Fin 2)) from by decide)
  unfold ScatterDims.window
  rw [dif_pos hk]
  rfl

/-- WHERE UPDATE `(e, c)` LANDS: at `(n, c')` exactly when edge `e`'s integer, read signed, is `n` and the columns agree. -/
theorem rowScatter_resultIdx_iff (e : Fin E) (c : Fin D) (n : Fin N) (c' : Fin D) :
    (rowScatterDims N D E wf).resultIdx? (ix2 e c) idx = some (ix2 n c')
      ↔ (idx (ix2 e (0 : Fin 1))).toInt = (n.val : Int) ∧ c = c' := by
  have h0 : (rowScatterDims N D E wf).start (ix2 e c) idx 0 + ((rowScatterDims N D E wf).window (ix2 e c) 0 : Int)
      = (idx (ix2 e (0 : Fin 1))).toInt := by
    rw [rowScatter_start0, rowScatter_window0]; simp
  have h1 : (rowScatterDims N D E wf).start (ix2 e c) idx 1 + ((rowScatterDims N D E wf).window (ix2 e c) 1 : Int)
      = (c.val : Int) := by
    rw [rowScatter_start1, rowScatter_window1]; simp
  constructor
  · intro hs
    unfold ScatterDims.resultIdx? at hs
    split at hs
    · rename_i h
      have hf := Option.some.inj hs
      have e0 : ((rowScatterDims N D E wf).start (ix2 e c) idx 0 + ((rowScatterDims N D E wf).window (ix2 e c) 0 : Int)).toNat
          = n.val := congrArg Fin.val (congrFun hf 0)
      have e1 : ((rowScatterDims N D E wf).start (ix2 e c) idx 1 + ((rowScatterDims N D E wf).window (ix2 e c) 1 : Int)).toNat
          = c'.val := congrArg Fin.val (congrFun hf 1)
      have b0 : 0 ≤ (rowScatterDims N D E wf).start (ix2 e c) idx 0 + ((rowScatterDims N D E wf).window (ix2 e c) 0 : Int) :=
        (h 0).1
      rw [h0] at e0 b0
      rw [h1] at e1
      exact ⟨by omega, Fin.ext (by omega)⟩
    · exact absurd hs (by simp)
  · rintro ⟨hr, rfl⟩
    have hn : n.val < N := n.isLt
    have hc : c.val < D := c.isLt
    have h : ∀ a, 0 ≤ (rowScatterDims N D E wf).start (ix2 e c) idx a + ((rowScatterDims N D E wf).window (ix2 e c) a : Int)
        ∧ (rowScatterDims N D E wf).start (ix2 e c) idx a + ((rowScatterDims N D E wf).window (ix2 e c) a : Int)
          < ((⟨2, ![N, D]⟩ : Shape).size a : Int) := by
      intro a
      match a with
      | ⟨0, _⟩ =>
        show 0 ≤ (rowScatterDims N D E wf).start (ix2 e c) idx 0 + ((rowScatterDims N D E wf).window (ix2 e c) 0 : Int)
          ∧ (rowScatterDims N D E wf).start (ix2 e c) idx 0 + ((rowScatterDims N D E wf).window (ix2 e c) 0 : Int) < (N : Int)
        rw [h0, hr]; omega
      | ⟨1, _⟩ =>
        show 0 ≤ (rowScatterDims N D E wf).start (ix2 e c) idx 1 + ((rowScatterDims N D E wf).window (ix2 e c) 1 : Int)
          ∧ (rowScatterDims N D E wf).start (ix2 e c) idx 1 + ((rowScatterDims N D E wf).window (ix2 e c) 1 : Int) < (D : Int)
        rw [h1]; omega
    unfold ScatterDims.resultIdx?
    rw [dif_pos h]
    refine congrArg some (funext fun a => Fin.ext ?_)
    match a with
    | ⟨0, _⟩ =>
      show ((rowScatterDims N D E wf).start (ix2 e c) idx 0 + ((rowScatterDims N D E wf).window (ix2 e c) 0 : Int)).toNat = n.val
      rw [h0, hr]; omega
    | ⟨1, _⟩ =>
      show ((rowScatterDims N D E wf).start (ix2 e c) idx 1 + ((rowScatterDims N D E wf).window (ix2 e c) 1 : Int)).toNat = c.val
      rw [h1]; omega

/-- ROWS ACCUMULATED INTO A MATRIX at `(n, c)`: the operand there plus the updates `(e, c)` of the edges whose integer
    is `n`. -/
theorem scatterAdd_rows_apply (x : (⟨2, ![N, D]⟩ : Shape).Idx → EReal) (upd : (⟨2, ![E, D]⟩ : Shape).Idx → EReal)
    (n : Fin N) (c : Fin D) :
    Ideal.hostScatterAdd (rowScatterDims N D E wf) x idx upd (ix2 n c)
      = x (ix2 n c) + ∑ e ∈ Finset.univ.filter (fun e : Fin E => (idx (ix2 e (0 : Fin 1))).toInt = (n.val : Int)),
          upd (ix2 e c) := by
  unfold Ideal.hostScatterAdd
  refine congrArg (x (ix2 n c) + ·) ?_
  have key : ∀ j : (⟨2, ![E, D]⟩ : Shape).Idx, (rowScatterDims N D E wf).resultIdx? j idx = some (ix2 n c) →
      (idx (ix2 (j 0 : Fin E) (0 : Fin 1))).toInt = (n.val : Int) ∧ ix2 (j 0 : Fin E) c = j := by
    intro j hj
    obtain ⟨e, c', rfl⟩ : ∃ (e : Fin E) (c' : Fin D), j = ix2 e c' := ⟨j 0, j 1, eq_ix2 j⟩
    obtain ⟨hr, rfl⟩ := (rowScatter_resultIdx_iff wf idx e c' n c).mp hj
    exact ⟨hr, rfl⟩
  refine Finset.sum_nbij' (fun j => (j 0 : Fin E)) (fun e => ix2 e c) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowScatter_resultIdx_iff wf idx e c n c).mpr ⟨(Finset.mem_filter.mp he).2, rfl⟩⟩
  · intro j hj
    exact (key j (Finset.mem_filter.mp hj).2).2
  · intro e _
    rfl
  · intro j hj
    exact congrArg upd (key j (Finset.mem_filter.mp hj).2).2.symm

end Rows

/-! ### The middle axis of a rank-3 array -/

/-- The dimension numbers of `x.at[:, idx, :].add(upd)` for an operand `[B, N, D]`, scatter indices `[E, 1]` and
    updates `[B, E, D]`. -/
abbrev midScatterDims (B N D E : Nat)
    (wf : ScatterDims.WF ⟨3, ![B, N, D]⟩ ⟨2, ![E, 1]⟩ ⟨3, ![B, E, D]⟩ [0, 2] [1] [1] 1) :
    ScatterDims ⟨3, ![B, N, D]⟩ ⟨2, ![E, 1]⟩ ⟨3, ![B, E, D]⟩ where
  updateWindowDims := [0, 2]
  insertedWindowDims := [1]
  scatterDimsToOperandDims := [1]
  indexVectorDim := 1
  wf := wf

section Mid
variable {B N D E w : Nat} (wf : ScatterDims.WF ⟨3, ![B, N, D]⟩ ⟨2, ![E, 1]⟩ ⟨3, ![B, E, D]⟩ [0, 2] [1] [1] 1)
  (idx : IVec ⟨2, ![E, 1]⟩ w)

/-- On the middle axis the window of update `(b, e, o)` starts at edge `e`'s integer, read signed, … -/
theorem midScatter_start1 (b : Fin B) (e : Fin E) (o : Fin D) :
    (midScatterDims B N D E wf).start (ix3 b e o) idx 1 = (idx (ix2 e (0 : Fin 1))).toInt := by
  unfold ScatterDims.start
  rw [dif_pos (show (1 : Fin 3) ∈ (midScatterDims B N D E wf).scatterDimsToOperandDims from List.mem_singleton.mpr rfl)]
  have hsi : (midScatterDims B N D E wf).siIdx (ix3 b e o) ⟨List.idxOf (1 : Fin 3) (midScatterDims B N D E wf).scatterDimsToOperandDims,
      List.idxOf_lt_length_iff.2 (List.mem_singleton.mpr rfl)⟩ = ix2 e (0 : Fin 1) := by
    funext b'; refine Fin.ext ?_
    match b' with
    | ⟨0, _⟩ => rfl
    | ⟨1, _⟩ => rfl
  rw [hsi]

/-- … and on the outer axes at zero. -/
theorem midScatter_start0 (j : (⟨3, ![B, E, D]⟩ : Shape).Idx) : (midScatterDims B N D E wf).start j idx 0 = 0 := by
  unfold ScatterDims.start
  rw [dif_neg (show ¬ (0 : Fin 3) ∈ ([1] : List (Fin 3)) from by decide)]
theorem midScatter_start2 (j : (⟨3, ![B, E, D]⟩ : Shape).Idx) : (midScatterDims B N D E wf).start j idx 2 = 0 := by
  unfold ScatterDims.start
  rw [dif_neg (show ¬ (2 : Fin 3) ∈ ([1] : List (Fin 3)) from by decide)]

/-- The window coordinates are the update's outer coordinates, and zero on the middle axis. -/
theorem midScatter_window0 (b : Fin B) (e : Fin E) (o : Fin D) : (midScatterDims B N D E wf).window (ix3 b e o) 0 = b.val := by
  have hk : (0 : Fin 3) ∈ (midScatterDims B N D E wf).sKept :=
    (mem_sKept_iff _ _).mpr (show ¬ (0 : Fin 3) ∈ ([1] : List (Fin 3)) from by decide)
  unfold ScatterDims.window
  rw [dif_pos hk]
  rfl
theorem midScatter_window1 (j : (⟨3, ![B, E, D]⟩ : Shape).Idx) : (midScatterDims B N D E wf).window j 1 = 0 := by
  unfold ScatterDims.window
  rw [dif_neg (fun h => ((mem_sKept_iff _ _).mp h) (List.mem_singleton.mpr rfl))]
theorem midScatter_window2 (b : Fin B) (e : Fin E) (o : Fin D) : (midScatterDims B N D E wf).window (ix3 b e o) 2 = o.val := by
  have hk : (2 : Fin 3) ∈ (midScatterDims B N D E wf).sKept :=
    (mem_sKept_iff _ _).mpr (show ¬ (2 : Fin 3) ∈ ([1] : List (Fin 3)) from by decide)
  unfold ScatterDims.window
  rw [dif_pos hk]
  rfl

/-- WHERE UPDATE `(b, e, o)` LANDS: at `(b', n, o')` exactly when edge `e`'s integer, read signed, is `n` and the outer
    coordinates agree. -/
theorem midScatter_resultIdx_iff (b : Fin B) (e : Fin E) (o : Fin D) (b' : Fin B) (n : Fin N) (o' : Fin D) :
    (midScatterDims B N D E wf).resultIdx? (ix3 b e o) idx = some (ix3 b' n o')
      ↔ (idx (ix2 e (0 : Fin 1))).toInt = (n.val : Int) ∧ b = b' ∧ o = o' := by
  have h0 : (midScatterDims B N D E wf).start (ix3 b e o) idx 0 + ((midScatterDims B N D E wf).window (ix3 b e o) 0 : Int)
      = (b.val : Int) := by
    rw [midScatter_start0, midScatter_window0]; simp
  have h1 : (midScatterDims B N D E wf).start (ix3 b e o) idx 1 + ((midScatterDims B N D E wf).window (ix3 b e o) 1 : Int)
      = (idx (ix2 e (0 : Fin 1))).toInt := by
    rw [midScatter_start1, midScatter_window1]; simp
  have h2 : (midScatterDims B N D E wf).start (ix3 b e o) idx 2 + ((midScatterDims B N D E wf).window (ix3 b e o) 2 : Int)
      = (o.val : Int) := by
    rw [midScatter_start2, midScatter_window2]; simp
  constructor
  · intro hs
    unfold ScatterDims.resultIdx? at hs
    split at hs
    · rename_i h
      have hf := Option.some.inj hs
      have e0 : ((midScatterDims B N D E wf).start (ix3 b e o) idx 0 + ((midScatterDims B N D E wf).window (ix3 b e o) 0 : Int)).toNat
          = b'.val := congrArg Fin.val (congrFun hf 0)
      have e1 : ((midScatterDims B N D E wf).start (ix3 b e o) idx 1 + ((midScatterDims B N D E wf).window (ix3 b e o) 1 : Int)).toNat
          = n.val := congrArg Fin.val (congrFun hf 1)
      have e2 : ((midScatterDims B N D E wf).start (ix3 b e o) idx 2 + ((midScatterDims B N D E wf).window (ix3 b e o) 2 : Int)).toNat
          = o'.val := congrArg Fin.val (congrFun hf 2)
      have b1 : 0 ≤ (midScatterDims B N D E wf).start (ix3 b e o) idx 1 + ((midScatterDims B N D E wf).window (ix3 b e o) 1 : Int) :=
        (h 1).1
      rw [h0] at e0
      rw [h1] at e1 b1
      rw [h2] at e2
      exact ⟨by omega, Fin.ext (by omega), Fin.ext (by omega)⟩
    · exact absurd hs (by simp)
  · rintro ⟨hr, rfl, rfl⟩
    have hb : b.val < B := b.isLt
    have hn : n.val < N := n.isLt
    have ho : o.val < D := o.isLt
    have h : ∀ a, 0 ≤ (midScatterDims B N D E wf).start (ix3 b e o) idx a + ((midScatterDims B N D E wf).window (ix3 b e o) a : Int)
        ∧ (midScatterDims B N D E wf).start (ix3 b e o) idx a + ((midScatterDims B N D E wf).window (ix3 b e o) a : Int)
          < ((⟨3, ![B, N, D]⟩ : Shape).size a : Int) := by
      intro a
      match a with
      | ⟨0, _⟩ =>
        show 0 ≤ (midScatterDims B N D E wf).start (ix3 b e o) idx 0 + ((midScatterDims B N D E wf).window (ix3 b e o) 0 : Int)
          ∧ (midScatterDims B N D E wf).start (ix3 b e o) idx 0 + ((midScatterDims B N D E wf).window (ix3 b e o) 0 : Int) < (B : Int)
        rw [h0]; omega
      | ⟨1, _⟩ =>
        show 0 ≤ (midScatterDims B N D E wf).start (ix3 b e o) idx 1 + ((midScatterDims B N D E wf).window (ix3 b e o) 1 : Int)
          ∧ (midScatterDims B N D E wf).start (ix3 b e o) idx 1 + ((midScatterDims B N D E wf).window (ix3 b e o) 1 : Int) < (N : Int)
        rw [h1, hr]; omega
      | ⟨2, _⟩ =>
        show 0 ≤ (midScatterDims B N D E wf).start (ix3 b e o) idx 2 + ((midScatterDims B N D E wf).window (ix3 b e o) 2 : Int)
          ∧ (midScatterDims B N D E wf).start (ix3 b e o) idx 2 + ((midScatterDims B N D E wf).window (ix3 b e o) 2 : Int) < (D : Int)
        rw [h2]; omega
    unfold ScatterDims.resultIdx?
    rw [dif_pos h]
    refine congrArg some (funext fun a => Fin.ext ?_)
    match a with
    | ⟨0, _⟩ =>
      show ((midScatterDims B N D E wf).start (ix3 b e o) idx 0 + ((midScatterDims B N D E wf).window (ix3 b e o) 0 : Int)).toNat = b.val
      rw [h0]; omega
    | ⟨1, _⟩ =>
      show ((midScatterDims B N D E wf).start (ix3 b e o) idx 1 + ((midScatterDims B N D E wf).window (ix3 b e o) 1 : Int)).toNat = n.val
      rw [h1, hr]; omega
    | ⟨2, _⟩ =>
      show ((midScatterDims B N D E wf).start (ix3 b e o) idx 2 + ((midScatterDims B N D E wf).window (ix3 b e o) 2 : Int)).toNat = o.val
      rw [h2]; omega

/-- THE MIDDLE AXIS ACCUMULATED at `(b, n, o)`: the operand there plus the updates `(b, e, o)` of the edges whose
    integer is `n` — the same edges as in the matrix layout. -/
theorem scatterAdd_mid_apply (x : (⟨3, ![B, N, D]⟩ : Shape).Idx → EReal) (upd : (⟨3, ![B, E, D]⟩ : Shape).Idx → EReal)
    (b : Fin B) (n : Fin N) (o : Fin D) :
    Ideal.hostScatterAdd (midScatterDims B N D E wf) x idx upd (ix3 b n o)
      = x (ix3 b n o) + ∑ e ∈ Finset.univ.filter (fun e : Fin E => (idx (ix2 e (0 : Fin 1))).toInt = (n.val : Int)),
          upd (ix3 b e o) := by
  unfold Ideal.hostScatterAdd
  refine congrArg (x (ix3 b n o) + ·) ?_
  have key : ∀ j : (⟨3, ![B, E, D]⟩ : Shape).Idx, (midScatterDims B N D E wf).resultIdx? j idx = some (ix3 b n o) →
      (idx (ix2 (j 1 : Fin E) (0 : Fin 1))).toInt = (n.val : Int) ∧ ix3 b (j 1 : Fin E) o = j := by
    intro j hj
    obtain ⟨b', e, o', rfl⟩ : ∃ (b' : Fin B) (e : Fin E) (o' : Fin D), j = ix3 b' e o' := ⟨j 0, j 1, j 2, eq_ix3 j⟩
    obtain ⟨hr, rfl, rfl⟩ := (midScatter_resultIdx_iff wf idx b' e o' b n o).mp hj
    exact ⟨hr, rfl⟩
  refine Finset.sum_nbij' (fun j => (j 1 : Fin E)) (fun e => ix3 b e o) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (midScatter_resultIdx_iff wf idx b e o b n o).mpr ⟨(Finset.mem_filter.mp he).2, rfl, rfl⟩⟩
  · intro j hj
    exact (key j (Finset.mem_filter.mp hj).2).2
  · intro e _
    rfl
  · intro j hj
    exact congrArg upd (key j (Finset.mem_filter.mp hj).2).2.symm

end Mid

end Scatter

end Cert.Lib

end
-- ==== Proof.LibEdgeGatherVec.lean ====
/-
  A gather of scalars from a vector, keyed by ONE integer per edge. Independent of any program.

  An edge list of length `E` carries, per edge `e`, one integer `idx[e, 0]` (the start indices have shape `[E, 1]`).
  Elements of a vector `x : [N]` taken at the edges' integers (`x[idx]`: no offset axis, collapsed axis 0, slices
  `[1]`) give `[E]`, whose element `e` is `x` at `clampRow idx e` — the integer read signed and clamped into
  `[0, N − 1]`, as the gather clamps every start index.  This is the matrix gather of rows with the column axis
  removed: the same place is read, and nothing is left of the slice but one element.
-/
import proofs.«135906_j90486370992276_2_alg».proof.Proof.LibEdgeGatherScatter

noncomputable section

namespace Cert.Lib

open Idealize.ShloMosaic Idealize.ShloMosaic.ValueIdx

/-- The dimension numbers of `x[idx]` for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- ELEMENTS OF A VECTOR at `e`: the operand at `clampRow idx e`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN idx e)) := by
  unfold Host.gather
  congr 1
  funext a
  refine Fin.ext ?_
  match a with
  | ⟨0, _⟩ =>
    show (vecGatherDims N E wf).start (ix1 e) idx 0 + (vecGatherDims N E wf).batchCoord (ix1 e) 0
        + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.Lib

end
-- ==== Proof.LibEdgeAggregate.lean ====
/-
  One message-passing aggregation read at an entry. Independent of any program.

  Every edge e carries a source integer and a destination integer. The aggregation gathers, per edge, the source's
  feature row and the source's scalar weight, multiplies them, and accumulates the products into the row of the edge's
  destination, starting from zeros. At node n and column k the result is therefore the sum, over the edges whose
  destination integer is n, of feat (row e, k) · nrm (row e), where row e is the source integer read signed and clamped
  into the node range, as a gather clamps.
-/
import Idealize.ShloMosaic.Lib.Pipeline.Value
import Idealize.ShloMosaic.Lib.ValueIdx
import Idealize.ShloMosaic.PureOps.Ideal
import Idealize.ShloMosaic.PureOps.Ideal.Laws
import proofs.«135906_j90486370992276_2_alg».proof.Proof.LibEdgeGatherScatter
import proofs.«135906_j90486370992276_2_alg».proof.Proof.LibEdgeGatherVec

noncomputable section

namespace Cert.Gcn

open Idealize.ShloMosaic Idealize.ShloMosaic.ValueIdx Cert.Lib

/-- The edges whose destination integer, read signed, is `n`. -/
def inEdges {E : Nat} (dstIdx : IVec ⟨2, ![E, 1]⟩ 32) (n : Nat) : Finset (Fin E) :=
  Finset.univ.filter fun e => (dstIdx (ix2 e (0 : Fin 1))).toInt = (n : Int)

/-- A vector [E] stood up as a column [E, 1] and spread over D columns reads, at (e, k), the vector at e. -/
theorem spread_apply {α : Type} {E D : Nat} (v : (⟨1, ![E]⟩ : Shape).Idx → α)
    (hb1 : (⟨1, ![E]⟩ : Shape).BroadcastsInDim ⟨2, ![E, 1]⟩ ![0])
    (hb2 : (⟨2, ![E, 1]⟩ : Shape).BroadcastsInDim ⟨2, ![E, D]⟩ ![0, 1]) (e : Fin E) (k : Fin D) :
    broadcastInDim ⟨2, ![E, D]⟩ ![0, 1] hb2 (broadcastInDim ⟨2, ![E, 1]⟩ ![0] hb1 v) (ix2 e k) = v (ix1 e) := by
  have he : E = 1 → e.val = 0 := fun h => by have := e.isLt; omega
  refine (broadcastInDim_apply _ hb2 _ (ix2 e k) (ix2 e (0 : Fin 1)) fun a => ?_).trans
    (broadcastInDim_apply _ hb1 v (ix2 e (0 : Fin 1)) (ix1 e) fun a => ?_)
  · match a with
    | ⟨0, _⟩ =>
      show e.val = if E = 1 then 0 else e.val
      split
      · rename_i h; exact he h
      · rfl
    | ⟨1, _⟩ => rfl
  · match a with
    | ⟨0, _⟩ =>
      show e.val = if E = 1 then 0 else e.val
      split
      · rename_i h; exact he h
      · rfl

/-- THE AGGREGATION AT (n, k): the sum over the edges ending in n of the source's feature times the source's weight. -/
theorem aggregate_apply {N D E : Nat} (hN : 0 < N)
    (wfS : ScatterDims.WF ⟨2, ![N, D]⟩ ⟨2, ![E, 1]⟩ ⟨2, ![E, D]⟩ [1] [0] [0] 1)
    (wfG : GatherDims.WF ⟨2, ![N, D]⟩ ⟨2, ![E, 1]⟩ ⟨2, ![E, D]⟩ [1] [0] [] [0] [] 1 ![1, D])
    (wfV : GatherDims.WF ⟨1, ![N]⟩ ⟨2, ![E, 1]⟩ ⟨1, ![E]⟩ [] [0] [] [0] [] 1 ![1])
    (hb0 : (⟨0, ![]⟩ : Shape).BroadcastsInDim ⟨2, ![N, D]⟩ ![])
    (hb1 : (⟨1, ![E]⟩ : Shape).BroadcastsInDim ⟨2, ![E, 1]⟩ ![0])
    (hb2 : (⟨2, ![E, 1]⟩ : Shape).BroadcastsInDim ⟨2, ![E, D]⟩ ![0, 1])
    (feat : FVec Ideal ⟨2, ![N, D]⟩ .f32) (nrm : FVec Ideal ⟨1, ![N]⟩ .f32) (srcIdx dstIdx : IVec ⟨2, ![E, 1]⟩ 32)
    (n : Fin N) (k : Fin D) :
    Host.scatterAdd (F := Ideal) (rowScatterDims N D E wfS)
        (broadcastInDim ⟨2, ![N, D]⟩ ![] hb0 (constant (F := Ideal) ⟨0, ![]⟩ .f32 0x00000000#32)) dstIdx
        (mulf (Host.gather (rowGatherDims N D E wfG) feat srcIdx)
          (broadcastInDim ⟨2, ![E, D]⟩ ![0, 1] hb2
            (broadcastInDim ⟨2, ![E, 1]⟩ ![0] hb1 (Host.gather (vecGatherDims N E wfV) nrm srcIdx))))
        (ix2 n k)
      = ∑ e ∈ inEdges dstIdx n.val, feat (ix2 (clampRow N hN srcIdx e) k) * nrm (ix1 (clampRow N hN srcIdx e)) := by
  refine (congrFun (Ideal.hostScatterAdd_def (rowScatterDims N D E wfS) .single _ dstIdx _) (ix2 n k)).trans ?_
  rw [scatterAdd_rows_apply]
  have h0 : broadcastInDim ⟨2, ![N, D]⟩ ![] hb0 (constant (F := Ideal) ⟨0, ![]⟩ .f32 0x00000000#32) (ix2 n k) = 0 :=
    Ideal.ofBits_zero_f32
  rw [h0, zero_add]
  refine Finset.sum_congr rfl fun e _ => ?_
  rw [mulf_apply, gather_rows_apply hN, spread_apply, gather_vec_apply hN]

end Cert.Gcn

end
-- ==== Proof.LibRealCollapse.lean ====
/-
  The algebra of a two-layer graph convolution on the extended reals. Independent of any program.

  A layer aggregates, at node n, the rows of a feature matrix at the sources of the edges that end in n, each
  row scaled by a per-source weight; the aggregate is scaled by a per-node weight and multiplied by a dense weight
  matrix. Multiplying by the weight matrix BEFORE aggregating gives the same result, because the product is linear in
  the rows: for real entries
      ((Σ_e (Σ_k h e k · W k) · a e) · c = Σ_k ((Σ_e h e k · a e) · c) · W k.
  On the extended reals distributivity fails at the infinities, so the law is stated for entries that are real
  numbers; the predicate `IsReal` and its closure under the operations a layer uses say which entries are.
-/
import Mathlib.Data.EReal.Basic
import Mathlib.Data.EReal.Operations
import Mathlib.Algebra.BigOperators.Ring.Finset
import Mathlib.Algebra.BigOperators.Group.Finset.Sigma
import Mathlib.Tactic.Ring

noncomputable section

namespace Cert.Gcn

open Finset

/-- An extended real that is a real number. -/
def IsReal (v : EReal) : Prop := ∃ r : ℝ, v = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {u v : EReal} (hu : IsReal u) (hv : IsReal v) : IsReal (u + v) := by
  obtain ⟨a, rfl⟩ := hu; obtain ⟨b, rfl⟩ := hv
  exact ⟨a + b, (EReal.coe_add a b).symm⟩

theorem IsReal.mul {u v : EReal} (hu : IsReal u) (hv : IsReal v) : IsReal (u * v) := by
  obtain ⟨a, rfl⟩ := hu; obtain ⟨b, rfl⟩ := hv
  exact ⟨a * b, (EReal.coe_mul a b).symm⟩

theorem IsReal.max {u v : EReal} (hu : IsReal u) (hv : IsReal v) : IsReal (max u v) := by
  rcases max_choice u v with h | h <;> rw [h] <;> assumption

theorem IsReal.sum {ι : Type} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The dense weight commutes with the weighted aggregation, over the reals. -/
theorem collapse_real {ι κ : Type} [Fintype κ] (S : Finset ι) (h : ι → κ → ℝ) (a : ι → ℝ) (W : κ → ℝ) (c : ℝ) :
    (∑ e ∈ S, (∑ k, h e k * W k) * a e) * c = ∑ k, ((∑ e ∈ S, h e k * a e) * c) * W k := by
  simp only [Finset.sum_mul]
  rw [Finset.sum_comm]
  exact Finset.sum_congr rfl fun k _ => Finset.sum_congr rfl fun e _ => by ring

/-- The same on the extended reals, for entries that are real numbers: the node's result with the weight applied
    before the aggregation equals the result with the weight applied after it; the bias `b` is any extended real. -/
theorem collapse {ι κ : Type} [Fintype κ] (S : Finset ι) (h : ι → κ → EReal) (a : ι → EReal) (W : κ → EReal) (c b : EReal)
    (hh : ∀ e k, IsReal (h e k)) (ha : ∀ e, IsReal (a e)) (hW : ∀ k, IsReal (W k)) (hc : IsReal c) :
    (∑ e ∈ S, (∑ k, h e k * W k) * a e) * c + b = (∑ k, ((∑ e ∈ S, h e k * a e) * c) * W k) + b := by
  choose h' hh' using hh
  choose a' ha' using ha
  choose W' hW' using hW
  obtain ⟨c', rfl⟩ := hc
  refine congrArg (· + b) ?_
  simp only [hh', ha', hW', ← EReal.coe_mul, ← coe_sum]
  exact congrArg _ (collapse_real S h' a' W' c')

end Cert.Gcn

end
-- ==== Proof.RefValue.lean ====
/-
  The reference computation read at an entry: a two-layer graph convolution.

  Per node n the degree weight w n is a reciprocal square root of max (degree n) 1, or zero: in either case a real
  number. A layer takes a feature matrix h, forms at node n and column k the sum over the edges e that end in n of
  h (row e, k) · w (row e), scales it by w n, multiplies by a dense weight matrix and adds a bias; the first layer is
  followed by max · 0. The lemmas below read the hidden features and the result at an entry in exactly this form, and
  show that the hidden features are real numbers when the inputs are.
-/
import proofs.«135906_j90486370992276_2_alg».proof.Proof.RefRead
import proofs.«135906_j90486370992276_2_alg».proof.Proof.LibEdgeAggregate
import proofs.«135906_j90486370992276_2_alg».proof.Proof.LibRealCollapse
import Idealize.ShloMosaic.Lib.IdealHost

noncomputable section

namespace Cert.Gcn.Ref

open Idealize.ShloMosaic Idealize.ShloMosaic.ValueIdx Cert.ReferenceIdeal Cert.ReferenceIdeal.ReadP Cert.Gcn

/-- The node an edge reads from: its source integer, read signed and clamped into the node range. -/
abbrev row (x1 : (⟨S2x1250000, .i32⟩ : BufTy).Contents (Elt Ideal)) (e : Fin 1250000) : Fin 100000 :=
  Cert.Lib.clampRow 100000 (by decide) (val_main_v19 (F := Ideal) x1) e

/-- The reciprocal square root of an extended real that is at least 1 is a real number: at +∞ it is 0, at a real
    r ≥ 1 it is (√r)⁻¹. -/
theorem isReal_rsqrt_of_one_le (y : EReal) (hy : 1 ≤ y) : IsReal (Ideal.rsqrt y) := by
  induction y using EReal.rec with
  | bot => exact absurd (le_bot_iff.1 hy) (EReal.coe_ne_bot 1)
  | coe r =>
    have hr : (1 : ℝ) ≤ r := by exact_mod_cast hy
    rw [Ideal.rsqrt_coe, if_neg (by linarith), if_neg (by linarith)]
    exact isReal_coe _
  | top => rw [Ideal.rsqrt_top]; exact isReal_zero

/-- The degree weight of every node is a real number. -/
theorem nrm_real (x1 : (⟨S2x1250000, .i32⟩ : BufTy).Contents (Elt Ideal)) (i : S100000.Idx) :
    IsReal (val_main_v13 (F := Ideal) x1 i) := by
  rw [val_main_v13_apply]
  unfold Scalar.select
  split
  · rw [val_main_v12_apply, val_main_v11_apply, val_main_v10_apply, val_main_cst_2_apply]
    generalize val_main_v7 (F := Ideal) x1 i = d
    show IsReal (Ideal.rsqrt (max (d : EReal) (Ideal.ofBits .f32 0x3F800000#32)))
    rw [Ideal.ofBits_one_f32]
    exact isReal_rsqrt_of_one_le _ (le_max_right _ _)
  · rw [val_main_call0_v1_apply, val_main_call0_v0_apply, val_main_cst_3_apply]
    show IsReal (Ideal.ofBits .f32 0x00000000#32)
    rw [Ideal.ofBits_zero_f32]
    exact isReal_zero

/-- The first aggregation at (n, k): the sum over the edges ending in n of the source's input feature times the
    source's degree weight. -/
theorem agg1_apply (x0 : (⟨S100000x64, .f32⟩ : BufTy).Contents (Elt Ideal)) (x1 : (⟨S2x1250000, .i32⟩ : BufTy).Contents (Elt Ideal))
    (n : Fin 100000) (k : Fin 64) :
    val_main_v33 (F := Ideal) x0 x1 (ix2 n k)
      = ∑ e ∈ inEdges (val_main_v6 (F := Ideal) x1) n.val,
          x0 (ix2 (row x1 e) k) * val_main_v13 (F := Ideal) x1 (ix1 (row x1 e)) := by
  have h26 : val_main_v26 (F := Ideal) x1 = val_main_v19 (F := Ideal) x1 := rfl
  have h32 : val_main_v32 (F := Ideal) x1 = val_main_v6 (F := Ideal) x1 := rfl
  unfold val_main_v33 val_main_v30 val_main_v29 val_main_v28 val_main_v27 val_main_v20 val_main_v31 val_main_cst_7
  rw [h26, h32]
  exact aggregate_apply (N := 100000) (D := 64) (E := 1250000) (by decide) _ _ _ _ _ _ x0
    (val_main_v13 (F := Ideal) x1) (val_main_v19 (F := Ideal) x1) (val_main_v6 (F := Ideal) x1) n k

/-- The first aggregation is a real number when the input features are. -/
theorem agg1_real (x0 : (⟨S100000x64, .f32⟩ : BufTy).Contents (Elt Ideal)) (x1 : (⟨S2x1250000, .i32⟩ : BufTy).Contents (Elt Ideal))
    (h0 : ∀ i, IsReal (x0 i)) (n : Fin 100000) (k : Fin 64) : IsReal (val_main_v33 (F := Ideal) x0 x1 (ix2 n k)) := by
  rw [agg1_apply]
  exact IsReal.sum _ _ fun e _ => (h0 _).mul (nrm_real x1 _)

/-- The hidden features at (n, j): the aggregate scaled by the node's degree weight, times the first weight matrix,
    plus the first bias, cut off below at 0. -/
theorem hid_apply (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal)) (n : Fin 100000) (j : Fin 64) :
    val_main_v41 (F := Ideal) x0 x1 x2 x3 (ix2 n j)
      = max ((∑ k : Fin 64, (val_main_v33 (F := Ideal) x0 x1 (ix2 n k) * val_main_v13 (F := Ideal) x1 (ix1 n)) * x2 (ix2 k j))
          + x3 (ix1 j)) 0 := by
  rw [val_main_v41_apply, val_main_v40_apply, val_main_call1_v0_apply, val_main_call1_cst_apply,
    val_main_v37_apply, val_main_v39_apply, val_main_v38_apply]
  have e3 : idx_main_v38 (idx_main_v39 (ix2 n j)) = ix1 j := funext fun a => match a with | ⟨0, _⟩ => rfl
  have hs : ∀ k : Fin 64, val_main_v36 (F := Ideal) x0 x1 (lidx_main_v37 (ix2 n j) k) * x2 (ridx_main_v37 (ix2 n j) k)
      = (val_main_v33 (F := Ideal) x0 x1 (ix2 n k) * val_main_v13 (F := Ideal) x1 (ix1 n)) * x2 (ix2 k j) := fun k => by
    have el : lidx_main_v37 (ix2 n j) k = ix2 n k := funext fun a => match a with | ⟨0, _⟩ => rfl | ⟨1, _⟩ => rfl
    have er : ridx_main_v37 (ix2 n j) k = ix2 k j := funext fun a => match a with | ⟨0, _⟩ => rfl | ⟨1, _⟩ => rfl
    have e13 : idx_main_v34 (idx_main_v35 (ix2 n k)) = ix1 n := funext fun a => match a with | ⟨0, _⟩ => rfl
    rw [el, er, val_main_v36_apply, val_main_v35_apply, val_main_v34_apply, e13]
    rfl
  rw [e3, Finset.sum_congr rfl fun k _ => hs k]
  show max (_ + x3 (ix1 j)) (Ideal.ofBits .f32 0x00000000#32) = _
  rw [Ideal.ofBits_zero_f32]

/-- The hidden features are real numbers when the inputs are. -/
theorem hid_real (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal))
    (h0 : ∀ i, IsReal (x0 i)) (h2 : ∀ i, IsReal (x2 i)) (h3 : ∀ i, IsReal (x3 i)) (n : Fin 100000) (j : Fin 64) :
    IsReal (val_main_v41 (F := Ideal) x0 x1 x2 x3 (ix2 n j)) := by
  rw [hid_apply]
  exact ((IsReal.sum _ _ fun k _ => ((agg1_real x0 x1 h0 n k).mul (nrm_real x1 _)).mul (h2 _)).add (h3 _)).max isReal_zero

/-- The second aggregation at (n, k): the sum over the edges ending in n of the source's hidden feature times the
    source's degree weight. -/
theorem agg2_apply (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal)) (n : Fin 100000) (k : Fin 64) :
    val_main_v61 (F := Ideal) x0 x1 x2 x3 (ix2 n k)
      = ∑ e ∈ inEdges (val_main_v6 (F := Ideal) x1) n.val,
          val_main_v41 (F := Ideal) x0 x1 x2 x3 (ix2 (row x1 e) k) * val_main_v13 (F := Ideal) x1 (ix1 (row x1 e)) := by
  have h47 : val_main_v47 (F := Ideal) x1 = val_main_v19 (F := Ideal) x1 := rfl
  have h54 : val_main_v54 (F := Ideal) x1 = val_main_v19 (F := Ideal) x1 := rfl
  have h60 : val_main_v60 (F := Ideal) x1 = val_main_v6 (F := Ideal) x1 := rfl
  unfold val_main_v61 val_main_v58 val_main_v57 val_main_v56 val_main_v55 val_main_v48 val_main_v59 val_main_cst_12
  rw [h47, h54, h60]
  exact aggregate_apply (N := 100000) (D := 64) (E := 1250000) (by decide) _ _ _ _ _ _ (val_main_v41 (F := Ideal) x0 x1 x2 x3)
    (val_main_v13 (F := Ideal) x1) (val_main_v19 (F := Ideal) x1) (val_main_v6 (F := Ideal) x1) n k

/-- The result at (n, j): the second aggregate scaled by the node's degree weight, times the second weight matrix,
    plus the second bias. -/
theorem out_apply (x0 : (⟨S100000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal))
    (x4 : (⟨S64x32, .f32⟩ : BufTy).Contents (Elt Ideal)) (x5 : (⟨S32, .f32⟩ : BufTy).Contents (Elt Ideal)) (n : Fin 100000) (j : Fin 32) :
    val_main_v68 (F := Ideal) x0 x1 x2 x3 x4 x5 (ix2 n j)
      = (∑ k : Fin 64, ((∑ e ∈ inEdges (val_main_v6 (F := Ideal) x1) n.val,
            val_main_v41 (F := Ideal) x0 x1 x2 x3 (ix2 (row x1 e) k) * val_main_v13 (F := Ideal) x1 (ix1 (row x1 e)))
          * val_main_v13 (F := Ideal) x1 (ix1 n)) * x4 (ix2 k j)) + x5 (ix1 j) := by
  rw [val_main_v68_apply, val_main_v65_apply, val_main_v67_apply, val_main_v66_apply]
  have e5 : idx_main_v66 (idx_main_v67 (ix2 n j)) = ix1 j := funext fun a => match a with | ⟨0, _⟩ => rfl
  have hs : ∀ k : Fin 64, val_main_v64 (F := Ideal) x0 x1 x2 x3 (lidx_main_v65 (ix2 n j) k) * x4 (ridx_main_v65 (ix2 n j) k)
      = ((∑ e ∈ inEdges (val_main_v6 (F := Ideal) x1) n.val,
            val_main_v41 (F := Ideal) x0 x1 x2 x3 (ix2 (row x1 e) k) * val_main_v13 (F := Ideal) x1 (ix1 (row x1 e)))
          * val_main_v13 (F := Ideal) x1 (ix1 n)) * x4 (ix2 k j) := fun k => by
    have el : lidx_main_v65 (ix2 n j) k = ix2 n k := funext fun a => match a with | ⟨0, _⟩ => rfl | ⟨1, _⟩ => rfl
    have er : ridx_main_v65 (ix2 n j) k = ix2 k j := funext fun a => match a with | ⟨0, _⟩ => rfl | ⟨1, _⟩ => rfl
    have e13 : idx_main_v62 (idx_main_v63 (ix2 n k)) = ix1 n := funext fun a => match a with | ⟨0, _⟩ => rfl
    rw [el, er, val_main_v64_apply, val_main_v63_apply, val_main_v62_apply, e13, agg2_apply]
    rfl
  rw [e5, Finset.sum_congr rfl fun k _ => hs k]
  rfl

end Cert.Gcn.Ref

end
-- ==== Proof.LibColumnCast.lean ====
/-
  A vector as a column: an [a] array cast to [a, 1] reads, at (i, 0), the operand at i.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.Bridge.lean ====
/-
  The kernel program's result array is the reference program's, entry by entry, when the float inputs are real numbers.

  Kernel: out (n, j) = (Σ_{e ends in n} (Σ_k h (row e, k) · W2 (k, j)) · w (row e)) · w n + b2 j — the hidden features are
  projected through the second weight first and aggregated afterwards. Reference: out (n, j) = Σ_k ((Σ_{e ends in n}
  h (row e, k) · w (row e)) · w n) · W2 (k, j) + b2 j. Both read the same hidden features h (the first region computes the
  reference's first layer entry by entry) and the same per-node scale w; the two arrangements agree because the product
  with W2 is linear in the rows and every entry involved is a real number.
-/
import proofs.«135906_j90486370992276_2_alg».proof.Proof.KernelValue
import proofs.«135906_j90486370992276_2_alg».proof.Proof.RefValue
import proofs.«135906_j90486370992276_2_alg».proof.Proof.LibEdgeAggregate
import proofs.«135906_j90486370992276_2_alg».proof.Proof.LibColumnCast
import proofs.«135906_j90486370992276_2_alg».proof.Proof.LibRealCollapse
import Idealize.ShloMosaic.Lib.ValueLayout

set_option maxRecDepth 16384

noncomputable section

namespace Cert.Gcn.Bridge

open Cert.KernelIdeal Cert.KernelIdeal.Gen Cert.Gcn.KValue Cert.Gcn.Ref Cert.Gcn Cert.Lib
open Idealize.ShloMosaic Idealize.ShloMosaic.TcCoe Idealize.ShloMosaic.ValueIdx Idealize.SL.Sem
open Cert.ReferenceIdeal.ReadP (val_main_v6 val_main_v13 val_main_v19 val_main_v33 val_main_v41 val_main_v68)

variable (m : (ℓ : Loc nD τ sig) → Buf (Elt Ideal) ℓ)

/-- The kernel's hidden features are the reference's, entry by entry. -/
theorem hid_eq (c : Dev nD) (r : Fin 100000) (k : Fin 64) :
    hid m c (ix2 r k) = val_main_v41 (F := Ideal) (m ((c.tc : Thread nD τ).loc main_arg0)) (m ((c.tc : Thread nD τ).loc main_arg1))
      (m ((c.tc : Thread nD τ).loc main_arg2)) (m ((c.tc : Thread nD τ).loc main_arg3)) (ix2 r k) := by
  rw [hid_apply]
  show Region0.hiddenAt _ _ _ _ r k = _
  unfold Region0.hiddenAt
  rw [shapeCast_a_a1_apply, shapeCast_a_1a_apply]

/-- The kernel's second aggregate at (n, j). -/
theorem agg2_apply (c : Dev nD) (n : Fin 100000) (j : Fin 32) :
    agg2 m c (ix2 n j) = ∑ e ∈ inEdges (val_main_v6 (F := Ideal) (m ((c.tc : Thread nD τ).loc main_arg1))) n.val,
      prj m c (ix2 (row (m ((c.tc : Thread nD τ).loc main_arg1)) e) j)
        * val_main_v13 (F := Ideal) (m ((c.tc : Thread nD τ).loc main_arg1)) (ix1 (row (m ((c.tc : Thread nD τ).loc main_arg1)) e)) := by
  unfold agg2
  exact aggregate_apply (N := 100000) (D := 32) (E := 1250000) (by decide) _ _ _ _ _ _ (prj m c)
    (val_main_v13 (F := Ideal) (m ((c.tc : Thread nD τ).loc main_arg1))) (val_main_v19 (F := Ideal) (m ((c.tc : Thread nD τ).loc main_arg1)))
    (val_main_v6 (F := Ideal) (m ((c.tc : Thread nD τ).loc main_arg1))) n j

/-- THE TWO RESULTS AGREE at every entry, for real float inputs. -/
theorem result_eq (c : Dev nD)
    (h0 : ∀ i, IsReal ((m ((c.tc : Thread nD τ).loc main_arg0) : S100000x64.Idx → EReal) i))
    (h2 : ∀ i, IsReal ((m ((c.tc : Thread nD τ).loc main_arg2) : S64x64.Idx → EReal) i))
    (h3 : ∀ i, IsReal ((m ((c.tc : Thread nD τ).loc main_arg3) : S64.Idx → EReal) i))
    (h4 : ∀ i, IsReal ((m ((c.tc : Thread nD τ).loc main_arg4) : S64x32.Idx → EReal) i)) :
    result m c = val_main_v68 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  funext i
  obtain ⟨n, j, rfl⟩ : ∃ (n : Fin 100000) (j : Fin 32), i = ix2 n j := ⟨i 0, i 1, eq_ix2 i⟩
  rw [out_apply]
  show Region2.scaledAt _ _ _ n j = _
  unfold Region2.scaledAt
  rw [shapeCast_a_a1_apply, shapeCast_a_1a_apply, agg2_apply]
  have hp : ∀ e : Fin 1250000, prj m c (ix2 (row (m ((c.tc : Thread nD τ).loc main_arg1)) e) j)
      = ∑ k : Fin 64, val_main_v41 (F := Ideal) (m ((c.tc : Thread nD τ).loc main_arg0)) (m ((c.tc : Thread nD τ).loc main_arg1))
          (m ((c.tc : Thread nD τ).loc main_arg2)) (m ((c.tc : Thread nD τ).loc main_arg3)) (ix2 (row (m ((c.tc : Thread nD τ).loc main_arg1)) e) k)
          * (m ((c.tc : Thread nD τ).loc main_arg4) : S64x32.Idx → EReal) (ix2 k j) := fun e => by
    show Region1.projAt _ _ _ j = _
    unfold Region1.projAt
    exact Finset.sum_congr rfl fun k _ => by rw [hid_eq]
  rw [Finset.sum_congr rfl fun e _ => by rw [hp e]]
  exact collapse _ (fun e k => val_main_v41 (F := Ideal) (m ((c.tc : Thread nD τ).loc main_arg0)) (m ((c.tc : Thread nD τ).loc main_arg1))
      (m ((c.tc : Thread nD τ).loc main_arg2)) (m ((c.tc : Thread nD τ).loc main_arg3)) (ix2 (row (m ((c.tc : Thread nD τ).loc main_arg1)) e) k))
    (fun e => val_main_v13 (F := Ideal) (m ((c.tc : Thread nD τ).loc main_arg1)) (ix1 (row (m ((c.tc : Thread nD τ).loc main_arg1)) e)))
    (fun k => (m ((c.tc : Thread nD τ).loc main_arg4) : S64x32.Idx → EReal) (ix2 k j))
    (val_main_v13 (F := Ideal) (m ((c.tc : Thread nD τ).loc main_arg1)) (ix1 n)) _
    (fun e k => hid_real _ _ _ _ h0 h2 h3 _ _) (fun e => nrm_real _ _) (fun k => h4 _) (nrm_real _ _)

end Cert.Gcn.Bridge

end
-- ==== Proof.FiniteInputs.lean ====
/-
  The precondition "every float input is finite", read back: each float input entry is a real number.

  The precondition tests, per float input x, |x| < +∞ at every entry (the absolute value, an ordered
  "less than" against the constant array of the f32 word of +∞, and the conjunction of all the entry tests), and joins
  the five results by "and". On the extended reals |x| = max x (-x), and max x (-x) < ⊤ excludes exactly x = ⊤ and x = ⊥: what
  remains is the coercion of a real.
-/
import proofs.«135906_j90486370992276_2_alg».proof.Pre_finite_inputs
import proofs.«135906_j90486370992276_2_alg».proof.Proof.LibRealCollapse
import Idealize.ShloMosaic.Lib.ReduceAll
import Idealize.ShloMosaic.Lib.ValueIdx
import Idealize.ShloMosaic.PureOps.Ideal

noncomputable section

namespace Cert.Gcn

open Idealize.ShloMosaic

/-- An extended real whose absolute value max x (-x) lies strictly below +∞ is a real number. -/
theorem isReal_of_abs_lt_top (x : EReal) (h : max x (-x) < ⊤) : IsReal x := by
  induction x using EReal.rec with
  | bot => exact absurd h (by simp)
  | coe r => exact ⟨r, rfl⟩
  | top => exact absurd h (by simp)

/-- The f32 word 0x7F800000 denotes +∞. -/
theorem ofBits_inf : Ideal.ofBits .f32 0x7F800000#32 = ⊤ := by simp [Ideal.ofBits, Ideal.ieee]

/-- The entry test of the precondition: |x| < +∞, as the ordered comparison's word being 1, makes x a real. -/
theorem isReal_of_test (x : Ideal .f32)
    (h : FloatOps.cmpf .olt (FloatOps.hostAbsf x) (FloatOps.ofBits (F := Ideal) .f32 0x7F800000#32) = 1#1) : IsReal x := by
  change BitVec.ofBool (decide (max (x : EReal) (-(x : EReal)) < Ideal.ofBits .f32 0x7F800000#32)) = 1#1 at h
  rw [ofBits_inf] at h
  by_cases hlt : max (x : EReal) (-(x : EReal)) < ⊤
  · exact isReal_of_abs_lt_top x hlt
  · rw [decide_eq_false hlt] at h
    exact absurd h (by decide)

/-- The rank-0 shape has one index. -/
instance : Subsingleton Cert.Pre_finite_inputs.S_.Idx := ⟨fun a b => funext fun d => d.elim0⟩

/-- One float input's part of the precondition: the conjunction over all entries of |x| < +∞ being 1 makes every
    entry of x a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ValueIdx.ix0 = 1#1) (i : s.Idx) : IsReal (x i) :=
  isReal_of_test (x i) (Host.reduce_andi_all _ _ hr hu _ e i)

open Idealize.ShloMosaic in
theorem real_of_pre [Cert.Pre_finite_inputs.Facts]
    (a0 : FVec Ideal Cert.Pre_finite_inputs.S100000x64 .f32) (a1 : IVec Cert.Pre_finite_inputs.S2x1250000 32)
    (a2 : FVec Ideal Cert.Pre_finite_inputs.S64x64 .f32) (a3 : FVec Ideal Cert.Pre_finite_inputs.S64 .f32)
    (a4 : FVec Ideal Cert.Pre_finite_inputs.S64x32 .f32) (a5 : FVec Ideal Cert.Pre_finite_inputs.S32 .f32)
    (h : Cert.Pre_finite_inputs.fn (F := Ideal) a0 a1 a2 a3 a4 a5 = fun _ => 1#1) :
    (∀ i, IsReal (a0 i)) ∧ (∀ i, IsReal (a2 i)) ∧ (∀ i, IsReal (a3 i)) ∧ (∀ i, IsReal (a4 i)) ∧ (∀ i, IsReal (a5 i)) := by
  have h0 := congrFun h ValueIdx.ix0
  dsimp only [Cert.Pre_finite_inputs.fn, Cert.Pre_finite_inputs.fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨all_real a0 _ _ _ e0, all_real a2 _ _ _ e2, all_real a3 _ _ _ e3, all_real a4 _ _ _ e4, all_real a5 _ _ _ e5⟩

end Cert.Gcn

end
-- ==== Proof.lean ====
/-
  The certificate of a two-layer graph convolution kernel against its reference, on the extended reals.

  Both programs compute, from node features x, an edge list (sources and destinations), two weight matrices and two
  biases: the per-node scale w (a reciprocal square root of the clamped in-degree, or zero), the first layer
  h = max (((A (x ⊙ w)) ⊙ w) · W1 + b1, 0) where A sums over incoming edges, and the second layer. The reference computes
  the second layer as ((A (h ⊙ w)) ⊙ w) · W2 + b2; the kernel multiplies by W2 first and aggregates the narrower rows,
  (A ((h · W2) ⊙ w)) ⊙ w + b2. The two agree entry by entry because the product with W2 is linear in the rows, a law of
  the real numbers; every entry involved is a real number when the float inputs are finite, which the precondition says.

  The three frames: the kernel programs' are generated; the reference's is its run with the result dropped. The ideal
  pass rewrote nothing, so the idealization claim is trivial. The value claim: the kernel program's run with its result
  named, the result array as a term of the arguments (three kernel regions, each one function of the arrays it finds,
  among host stretches), the reference's run read at an entry, and the algebra.
-/
import proofs.«135906_j90486370992276_2_alg».proof.Defs
import proofs.«135906_j90486370992276_2_alg».proof.Proof.Gen.Kernel
import proofs.«135906_j90486370992276_2_alg».proof.Proof.Gen.Kernel.Skeleton
import proofs.«135906_j90486370992276_2_alg».proof.Proof.Gen.Kernel.Launch
import proofs.«135906_j90486370992276_2_alg».proof.Proof.Gen.Kernel.Points
import proofs.«135906_j90486370992276_2_alg».proof.Proof.Gen.Kernel.Frame
import proofs.«135906_j90486370992276_2_alg».proof.Proof.Gen.KernelIdeal
import proofs.«135906_j90486370992276_2_alg».proof.Proof.Gen.KernelIdeal.Skeleton
import proofs.«135906_j90486370992276_2_alg».proof.Proof.Gen.KernelIdeal.Launch
import proofs.«135906_j90486370992276_2_alg».proof.Proof.Gen.KernelIdeal.Points
import proofs.«135906_j90486370992276_2_alg».proof.Proof.Gen.KernelIdeal.Frame
import proofs.«135906_j90486370992276_2_alg».proof.Proof.Gen.ReferenceIdeal
import proofs.«135906_j90486370992276_2_alg».proof.Proof.Gen.Pre_finite_inputs
import proofs.«135906_j90486370992276_2_alg».proof.Proof.RefRun
import proofs.«135906_j90486370992276_2_alg».proof.Proof.RefRead
import proofs.«135906_j90486370992276_2_alg».proof.Proof.KernelRun
import proofs.«135906_j90486370992276_2_alg».proof.Proof.KernelValue
import proofs.«135906_j90486370992276_2_alg».proof.Proof.Bridge
import proofs.«135906_j90486370992276_2_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the same result array: the kernel's, as one term of the arguments; the reference's equals it
    entry by entry for real inputs. -/
theorem algebraic : Cert.algebraic_KernelIdeal_ReferenceIdeal := by
  intro m ρ m' ρ' hpre hagree
  refine ⟨fun c => Cert.Gcn.KValue.result m c, ?_, ?_⟩
  · exact (θ_run Cert.KernelIdeal.defs _ _).mono
      (fun r h c => ⟨(h c).1.trans (Cert.Gcn.KValue.w7_v59 m ρ c), (h c).2⟩) (Cert.Gcn.Run.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5⟩ := hagree c
    rw [Cert.ReferenceIdeal.ReadP.val_main_v68_eq, a0, a1, a2, a3, a4, a5]
    obtain ⟨h0, h2, h3, h4, -⟩ := Cert.Gcn.real_of_pre _ _ _ _ _ _ (hpre c)
    exact (Cert.Gcn.Bridge.result_eq m c h0 h2 h3 h4).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
